-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S_ : Shape := ⟨0, ![]⟩
abbrev S1x1x1 : Shape := ⟨3, ![1, 1, 1]⟩
abbrev S1x4096x3 : Shape := ⟨3, ![1, 4096, 3]⟩
abbrev S1x3x4096 : Shape := ⟨3, ![1, 3, 4096]⟩
abbrev S3x4096 : Shape := ⟨2, ![3, 4096]⟩
abbrev S4096 : Shape := ⟨1, ![4096]⟩
abbrev S1x4096 : Shape := ⟨2, ![1, 4096]⟩
abbrev S1x2048x3 : Shape := ⟨3, ![1, 2048, 3]⟩
abbrev S2048x3 : Shape := ⟨2, ![2048, 3]⟩
abbrev S2048 : Shape := ⟨1, ![2048]⟩
abbrev S2048x1 : Shape := ⟨2, ![2048, 1]⟩
abbrev S2048x4096 : Shape := ⟨2, ![2048, 4096]⟩
abbrev S2048x2048 : Shape := ⟨2, ![2048, 2048]⟩
abbrev S2048x1024 : Shape := ⟨2, ![2048, 1024]⟩
abbrev S2048x512 : Shape := ⟨2, ![2048, 512]⟩
abbrev S2048x256 : Shape := ⟨2, ![2048, 256]⟩
abbrev S2048x128 : Shape := ⟨2, ![2048, 128]⟩
abbrev S128x2048 : Shape := ⟨2, ![128, 2048]⟩
abbrev S1x2048 : Shape := ⟨2, ![1, 2048]⟩
abbrev S1x1024 : Shape := ⟨2, ![1, 1024]⟩
abbrev S1x512 : Shape := ⟨2, ![1, 512]⟩
abbrev S1x256 : Shape := ⟨2, ![1, 256]⟩
abbrev S1x128 : Shape := ⟨2, ![1, 128]⟩
abbrev S1 : Shape := ⟨1, ![1]⟩
abbrev S1x1 : Shape := ⟨2, ![1, 1]⟩

abbrev nBuf : Space → Nat
  | .hbm => 8
  | .vmem => 5
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S_, .f32⟩
  | .hbm, ⟨4, _⟩ => ⟨S4x3x4096, .f32⟩
  | .hbm, ⟨5, _⟩ => ⟨S4x3x4096, .f32⟩
  | .hbm, ⟨6, _⟩ => ⟨S1x1x1, .f32⟩
  | .hbm, ⟨7, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v108 : BitVec 1 := Scalar.cmpi .eq arg0 c0_i32
  let v109 : BitVec 32 := Scalar.extui v108
  let c0_i32_23 : BitVec 32 := 0#32
  let v110 : BitVec 1 := Scalar.cmpi .ne v109 c0_i32_23
  v110

def k0_cond2 (i : grid0.Coords) : BitVec 1 :=
  let arg0 : BitVec 32 := BitVec.ofNat 32 (i 0).val
  let c0_i32_24 : BitVec 32 := 0#32
  let v111 : BitVec 1 := Scalar.cmpi .ne arg0 c0_i32_24
  let v112 : BitVec 32 := Scalar.extui v111
  let c0_i32_25 : BitVec 32 := 0#32
  let v113 : BitVec 1 := Scalar.cmpi .ne v112 c0_i32_25
  v113

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S4x4096x3_S4x3x4096_0_2_1 : S4x4096x3.Transposes [0, 2, 1] S4x3x4096
  bcast_S_S4x3x4096 : S_.BroadcastsInDim S4x3x4096 (![] : Fin 0 → Fin S4x3x4096.rank)
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x4096_S4096 : S3x4096.Reduces [0] S4096
  shapeCasts_S4096_S1x4096 : S4096.ShapeCasts S1x4096
  inb_S1x4096x3_S1x2048x3_0_0_0 : ∀ a, (![0, 0, 0] : Fin 3 → Nat) a + S1x2048x3.size a ≤ S1x4096x3.size a
  h_S1x2048x3 : 0 < S1x2048x3.numel
  shapeCasts_S1x2048x3_S2048x3 : S1x2048x3.ShapeCasts S2048x3
  reduces_S2048x3_S2048 : S2048x3.Reduces [1] S2048
  shapeCasts_S2048_S2048x1 : S2048.ShapeCasts S2048x1
  broadcasts_S2048x1_S2048x4096 : S2048x1.Broadcasts S2048x4096
  broadcasts_S1x4096_S2048x4096 : S1x4096.Broadcasts S2048x4096
  slices_S2048x4096_o0_0_S2048x2048 : S2048x4096.Slices ![0, 0] S2048x2048
  slices_S2048x4096_o0_2048_S2048x2048 : S2048x4096.Slices ![0, 2048] S2048x2048
  slices_S2048x2048_o0_0_S2048x1024 : S2048x2048.Slices ![0, 0] S2048x1024
  slices_S2048x2048_o0_1024_S2048x1024 : S2048x2048.Slices ![0, 1024] S2048x1024
  slices_S2048x1024_o0_0_S2048x512 : S2048x1024.Slices ![0, 0] S2048x512
  slices_S2048x1024_o0_512_S2048x512 : S2048x1024.Slices ![0, 512] S2048x512
  slices_S2048x512_o0_0_S2048x256 : S2048x512.Slices ![0, 0] S2048x256
  slices_S2048x512_o0_256_S2048x256 : S2048x512.Slices ![0, 256] S2048x256
  slices_S2048x256_o0_0_S2048x128 : S2048x256.Slices ![0, 0] S2048x128
  slices_S2048x256_o0_128_S2048x128 : S2048x256.Slices ![0, 128] S2048x128
  transposes_S2048x128_p1_0_S128x2048 : S2048x128.Transposes [1, 0] S128x2048
  reduces_S128x2048_S2048 : S128x2048.Reduces [0] S2048
  shapeCasts_S2048_S1x2048 : S2048.ShapeCasts S1x2048
  slices_S1x2048_o0_0_S1x1024 : S1x2048.Slices ![0, 0] S1x1024
  slices_S1x2048_o0_1024_S1x1024 : S1x2048.Slices ![0, 1024] S1x1024
  slices_S1x1024_o0_0_S1x512 : S1x1024.Slices ![0, 0] S1x512
  slices_S1x1024_o0_512_S1x512 : S1x1024.Slices ![0, 512] S1x512
  slices_S1x512_o0_0_S1x256 : S1x512.Slices ![0, 0] S1x256
  slices_S1x512_o0_256_S1x256 : S1x512.Slices ![0, 256] S1x256
  slices_S1x256_o0_0_S1x128 : S1x256.Slices ![0, 0] S1x128
  slices_S1x256_o0_128_S1x128 : S1x256.Slices ![0, 128] S1x128
  reduces_S2048x4096_S4096 : S2048x4096.Reduces [0] S4096
  inb_S1x4096x3_S1x2048x3_0_2048_0 : ∀ a, (![0, 2048, 0] : Fin 3 → Nat) a + S1x2048x3.size a ≤ S1x4096x3.size a
  reduces_S1x128_S1 : S1x128.Reduces [1] S1
  shapeCasts_S1_S1x1 : S1.ShapeCasts S1x1
  reduces_S1x4096_S1 : S1x4096.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S1x1x1_S_ : S1x1x1.ShapeCasts S_
  dot_S2048x3_S3x4096_S2048x4096_1_0_0_1_n_n_wf : DotDims.WF S2048x3 S3x4096 S2048x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S1x1x1.size a
  hwx0_2 : ∀ i : grid0.Coords, EltTy.bits .f32 = 32 ∨ (Rect.block (s := S1x1x1) S1x1x1.size (cc0_transform_2 i) (hinb0_2 i)).WholeWords (EltTy.packing .f32)

variable [Facts₀]

def dot_S2048x3_S3x4096_S2048x4096_1_0_0_1_n_n : DotDims S2048x3 S3x4096 S2048x4096 where
  lhsContracting := [1]
  rhsContracting := [0]
  lhsNonContracting := [0]
  rhsNonContracting := [1]
  lhsBatch := []
  rhsBatch := []
  wf := dot_S2048x3_S3x4096_S2048x4096_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.BodyRunsBits.lean ====
/-
  The kernel body at one grid point, in its two control cases.

  The body reads the second operand's whole block and the two halves of the first operand's block, computes the
  batch's contribution `t`, and then, at the first grid point, overwrites the one-element output block with `t`;
  at every later point it reads the block back and overwrites it with (what it read) + `t`.  Exactly one of the two
  guarded stores happens at each point.  Each case is run once, symbolically, on arbitrary whole staging buffers;
  what the output buffer ends with is recorded as the list of stores made into it.
-/
import proofs.«176457_g5248450036648_cont_9to1_m_1041_39_alg».proof.Proof.Gen.Kernel.Frame
import proofs.«176457_g5248450036648_cont_9to1_m_1041_39_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The first guard (the point is the first of the grid). -/
abbrev isFirst (i : grid0.Coords) : Prop := k0_cond1 i = 1#1
/-- The second guard (the point is a later one). -/
abbrev isLater (i : grid0.Coords) : Prop := k0_cond2 i = 1#1

/-- The first guard holds at point 0 only. -/
theorem isFirst_iff : ∀ t : Fin cfg0.N, isFirst (grid0.coords t) ↔ t.val = 0 :=
  (by decide +kernel : ∀ t : Fin grid0.N, isFirst (grid0.coords t) ↔ t.val = 0)
/-- The second guard holds from point 1 on. -/
theorem isLater_iff : ∀ t : Fin cfg0.N, isLater (grid0.coords t) ↔ 1 ≤ t.val :=
  (by decide +kernel : ∀ t : Fin grid0.N, isLater (grid0.coords t) ↔ 1 ≤ t.val)

/-! ## The two runs -/

set_option maxHeartbeats 1000000 in
/-- FIRST POINT.  The inputs' buffers hold `x0`, `x1`; the output's holds anything.  The body runs, hands the inputs
    back as they were and the output buffer with the recorded stores written over what it held. -/
noncomputable def runFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : isFirst i) (hc1 : ¬isLater i) (x0 : Vec F S1x4096x3 .f32) (x1 : Vec F S1x3x4096 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__chamfer_body i arg1 harg1 arg2 harg2 arg3 harg3) K } := by
  refine ⟨?_, fun E K => ?run⟩
  case run =>
    simp only [cc0__chamfer_body_eq_skeleton]; unfold cc0__chamfer_body_skel
    simp only [k0_part1_eq_skeleton, k0_part2_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A LATER POINT.  The output's buffer holds the running total `xo`; the body reads it back and stores the sum. -/
noncomputable def runLater (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬isFirst i) (hc1 : isLater i) (x0 : Vec F S1x4096x3 .f32) (x1 : Vec F S1x3x4096 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__chamfer_body i arg1 harg1 arg2 harg2 arg3 harg3) K } := by
  refine ⟨?_, fun E K => ?run⟩
  case run =>
    simp only [cc0__chamfer_body_eq_skeleton]; unfold cc0__chamfer_body_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Body

end
-- ==== Proof.BodyBits.lean ====
/-
  The pipeline's proof data and the frame of the program.

  The one-element output block is never written back before the last grid point, so its staging buffer carries
  the running total from point to point: after point 0 it holds what the first-point run leaves, after point n+1
  what the later-point run leaves when it finds what point n left.  With that, every grid point meets the body's
  precondition, the launch theorem runs the whole grid, and the host lines after the region run on its result.
-/
import proofs.«176457_g5248450036648_cont_9to1_m_1041_39_alg».proof.Proof.BodyRunsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

/-- One staging buffer of the output window, through which its contents are stated (the choice does not matter). -/
abbrev VO : View sig .tc .vmem S1x1x1 .f32 := (Memref.whole cc0_stg2_0 : Memref sig .tc .vmem S1x1x1 .f32).view
abbrev ms0 (t : Fin cfg0.N) : Memref sig .tc .vmem S1x4096x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)

/-- No window is idle anywhere: at every grid point one of the two guarded stores into the output happens. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Every setting of the one grid coordinate is some point's. -/
theorem coords_surj (i : grid0.Coords) : ∃ t : Fin cfg0.N, i = grid0.coords t := by
  have hb : grid0.bound 0 = 4 := rfl
  have hlt : (i 0).val < grid0.N := lt_of_lt_of_eq ((i 0).isLt.trans_eq hb) N_0.symm
  refine ⟨⟨(i 0).val, hlt⟩, funext fun a => ?_⟩
  match a with
  | ⟨0, _⟩ =>
    apply Fin.ext
    show (i 0).val = (i 0).val / grid0.stride 0 % grid0.bound 0
    have hs : grid0.stride 0 = 1 := by decide
    have h4 : (i 0).val < 4 := (i 0).isLt.trans_eq hb
    rw [hs, Nat.div_one]; exact (Nat.mod_eq_of_lt (i 0).isLt).symm
theorem live2_all : ∀ i : grid0.Coords, cfg0.idle 2 i = false := by
  intro i
  obtain ⟨t, rfl⟩ := coords_surj i
  exact live2 t

/-! ## What each run leaves in the output buffer -/

/-- The first-point run's one store covers the output block. -/
theorem coverFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : isFirst i) (hc1 : ¬isLater i) (x0 : Vec F S1x4096x3 .f32) (x1 : Vec F S1x3x4096 .f32) (y : S1x1x1.Idx) :
    ∃ pc ∈ (runFirst c i arg1 harg1 arg2 harg2 arg3 harg3 hc0 hc1 x0 x1).1, y ∈ pc.1.set :=
  View.cover_of_tiledL (runFirst c i arg1 harg1 arg2 harg2 arg3 harg3 hc0 hc1 x0 x1).1 S1x1x1.size (by sl_kernel_rfl) y

/-- What the first-point run leaves in the output block: its stores read back. -/
def outFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : isFirst i) (hc1 : ¬isLater i) (x0 : Vec F S1x4096x3 .f32) (x1 : Vec F S1x3x4096 .f32) : Vec F S1x1x1 .f32 :=
  VO.read (Elt F) (VO.writes (Elt F) VO.junk (runFirst c i arg1 harg1 arg2 harg2 arg3 harg3 hc0 hc1 x0 x1).1)

/-- A later-point run's one store covers the output block. -/
theorem coverLater (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬isFirst i) (hc1 : isLater i) (x0 : Vec F S1x4096x3 .f32) (x1 : Vec F S1x3x4096 .f32) (xo : Vec F S1x1x1 .f32) (y : S1x1x1.Idx) :
    ∃ pc ∈ (runLater c i arg1 harg1 arg2 harg2 arg3 harg3 hc0 hc1 x0 x1 xo).1, y ∈ pc.1.set :=
  View.cover_of_tiledL (runLater c i arg1 harg1 arg2 harg2 arg3 harg3 hc0 hc1 x0 x1 xo).1 S1x1x1.size (by sl_kernel_rfl) y

/-- What a later-point run leaves in the output block when it finds `xo` there. -/
def outLater (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬isFirst i) (hc1 : isLater i) (x0 : Vec F S1x4096x3 .f32) (x1 : Vec F S1x3x4096 .f32) (xo : Vec F S1x1x1 .f32) : Vec F S1x1x1 .f32 :=
  VO.read (Elt F) (VO.writes (Elt F) VO.junk (runLater c i arg1 harg1 arg2 harg2 arg3 harg3 hc0 hc1 x0 x1 xo).1)

/-! ## The running total, point by point -/

/-- What the output's staging buffer holds after the body at point `n`. -/
def outsAt (c : Dev nD) : (n : ℕ) → n < cfg0.N → Vec F S1x1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((isFirst_iff ⟨0, hn⟩).mpr rfl) (fun h => Nat.not_succ_le_zero 0 ((isLater_iff ⟨0, hn⟩).mp h))
      (iblk m c 0 ⟨0, hn⟩) (iblk m c 1 ⟨0, hn⟩)
  | n + 1, hn => outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
      (fun h => Nat.succ_ne_zero n ((isFirst_iff ⟨n + 1, hn⟩).mp h)) ((isLater_iff ⟨n + 1, hn⟩).mpr (Nat.succ_le_succ (Nat.zero_le n)))
      (iblk m c 0 ⟨n + 1, hn⟩) (iblk m c 1 ⟨n + 1, hn⟩) (outsAt c n (Nat.lt_of_succ_lt hn))

/-- At the first point: the first-point run's contents. -/
theorem outsAt_first (c : Dev nD) (t : Fin cfg0.N) (h0 : t.val = 0) (hl : ¬isLater (grid0.coords t)) :
    outsAt m c t.val t.isLt = outFirst c (grid0.coords t) (ms0 t) (hs0 t) (ms1 t) (hs1 t) (ms2 t) (hs2 t)
      ((isFirst_iff t).mpr h0) hl (iblk m c 0 t) (iblk m c 1 t) := by
  obtain ⟨n, hn⟩ := t
  cases n with
  | zero => rfl
  | succ n => exact absurd h0 (Nat.succ_ne_zero n)

/-- At a later point: the later-point run's contents over what the point before left. -/
theorem outsAt_later (c : Dev nD) (t : Fin cfg0.N) (h0 : t.val ≠ 0) (hf : ¬isFirst (grid0.coords t)) (hl : isLater (grid0.coords t)) :
    outsAt m c t.val t.isLt = outLater c (grid0.coords t) (ms0 t) (hs0 t) (ms1 t) (hs1 t) (ms2 t) (hs2 t)
      hf hl (iblk m c 0 t) (iblk m c 1 t) (outsAt m c (t.val - 1) (Nat.lt_of_le_of_lt (Nat.sub_le _ _) t.isLt)) := by
  obtain ⟨n, hn⟩ := t
  cases n with
  | zero => exact absurd rfl h0
  | succ n => rfl

/-! ## The proof data -/

/-- The arrays as the region finds them; after the body each input's buffer at its block, the output's at the running
    total; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outsAt m c t.val t.isLt := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later point the output's staging buffer holds what the body left at the point before: the buffer is not
    written back before the last point. -/
theorem before2_later (c : Dev nD) (t : Fin cfg0.N) (h0 : t.val ≠ 0) (d) :
    (dats m 0 c).before 2 t d = outsAt m c (t.val - 1) (Nat.lt_of_le_of_lt (Nat.sub_le _ _) t.isLt) := by
  have hN : t.val < 4 := lt_of_lt_of_eq t.isLt (show cfg0.N = 4 from N_0)
  rw [Dat.before_out_kept _ 2 rfl t h0 (Bool.eq_false_iff.mpr fun h => by have := (flush0_2 _).mp h; dsimp only at this; omega)
    live2_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; the point is the first or a later one, and at a
    later one the output's buffer holds the running total; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  have hN : t.val < 4 := lt_of_lt_of_eq t.isLt (show cfg0.N = 4 from N_0)
  by_cases h0 : t.val = 0
  · have hl : ¬isLater (grid0.coords t) := fun h => by have := (isLater_iff t).mp h; omega
    rw [outsAt_first m c t h0 hl]
    unfold outFirst
    iintro ⟨HΦ, Ho, ⟨%d0, H0⟩, ⟨%d1, H1⟩, ⟨%d2, H2⟩⟩
    iapply ((runFirst c (grid0.coords t) _ _ _ _ _ _ ((isFirst_iff t).mpr h0) hl (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · have hf : ¬isFirst (grid0.coords t) := fun h => h0 ((isFirst_iff t).mp h)
    have hl : isLater (grid0.coords t) := (isLater_iff t).mpr (by omega)
    rw [outsAt_later m c t h0 hf hl]
    simp only [before2_later m c t h0]
    unfold outLater
    iintro ⟨HΦ, Ho, ⟨%d0, H0⟩, ⟨%d1, H1⟩, ⟨%d2, H2⟩⟩
    iapply ((runLater c (grid0.coords t) _ _ _ _ _ _ hf hl (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    computes, every other unscoped buffer at what the host lines after the region compute from that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyRuns.lean ====
/-
  The kernel body at one grid point, in its two control cases.

  The body reads the second operand's whole block and the two halves of the first operand's block, computes the
  batch's contribution `t`, and then, at the first grid point, overwrites the one-element output block with `t`;
  at every later point it reads the block back and overwrites it with (what it read) + `t`.  Exactly one of the two
  guarded stores happens at each point.  Each case is run once, symbolically, on arbitrary whole staging buffers;
  what the output buffer ends with is recorded as the list of stores made into it.
-/
import proofs.«176457_g5248450036648_cont_9to1_m_1041_39_alg».proof.Proof.Gen.KernelIdeal.Frame
import proofs.«176457_g5248450036648_cont_9to1_m_1041_39_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The first guard (the point is the first of the grid). -/
abbrev isFirst (i : grid0.Coords) : Prop := k0_cond1 i = 1#1
/-- The second guard (the point is a later one). -/
abbrev isLater (i : grid0.Coords) : Prop := k0_cond2 i = 1#1

/-- The first guard holds at point 0 only. -/
theorem isFirst_iff : ∀ t : Fin cfg0.N, isFirst (grid0.coords t) ↔ t.val = 0 :=
  (by decide +kernel : ∀ t : Fin grid0.N, isFirst (grid0.coords t) ↔ t.val = 0)
/-- The second guard holds from point 1 on. -/
theorem isLater_iff : ∀ t : Fin cfg0.N, isLater (grid0.coords t) ↔ 1 ≤ t.val :=
  (by decide +kernel : ∀ t : Fin grid0.N, isLater (grid0.coords t) ↔ 1 ≤ t.val)

/-! ## The two runs -/

set_option maxHeartbeats 1000000 in
/-- FIRST POINT.  The inputs' buffers hold `x0`, `x1`; the output's holds anything.  The body runs, hands the inputs
    back as they were and the output buffer with the recorded stores written over what it held. -/
noncomputable def runFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : isFirst i) (hc1 : ¬isLater i) (x0 : Vec F S1x4096x3 .f32) (x1 : Vec F S1x3x4096 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__chamfer_body i arg1 harg1 arg2 harg2 arg3 harg3) K } := by
  refine ⟨?_, fun E K => ?run⟩
  case run =>
    simp only [cc0__chamfer_body_eq_skeleton]; unfold cc0__chamfer_body_skel
    simp only [k0_part1_eq_skeleton, k0_part2_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- A LATER POINT.  The output's buffer holds the running total `xo`; the body reads it back and stores the sum. -/
noncomputable def runLater (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬isFirst i) (hc1 : isLater i) (x0 : Vec F S1x4096x3 .f32) (x1 : Vec F S1x3x4096 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__chamfer_body i arg1 harg1 arg2 harg2 arg3 harg3) K } := by
  refine ⟨?_, fun E K => ?run⟩
  case run =>
    simp only [cc0__chamfer_body_eq_skeleton]; unfold cc0__chamfer_body_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Body

end
-- ==== Proof.Body.lean ====
/-
  The pipeline's proof data and the frame of the program.

  The one-element output block is never written back before the last grid point, so its staging buffer carries
  the running total from point to point: after point 0 it holds what the first-point run leaves, after point n+1
  what the later-point run leaves when it finds what point n left.  With that, every grid point meets the body's
  precondition, the launch theorem runs the whole grid, and the host lines after the region run on its result.
-/
import proofs.«176457_g5248450036648_cont_9to1_m_1041_39_alg».proof.Proof.BodyRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

/-- One staging buffer of the output window, through which its contents are stated (the choice does not matter). -/
abbrev VO : View sig .tc .vmem S1x1x1 .f32 := (Memref.whole cc0_stg2_0 : Memref sig .tc .vmem S1x1x1 .f32).view
abbrev ms0 (t : Fin cfg0.N) : Memref sig .tc .vmem S1x4096x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)

/-- No window is idle anywhere: at every grid point one of the two guarded stores into the output happens. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Every setting of the one grid coordinate is some point's. -/
theorem coords_surj (i : grid0.Coords) : ∃ t : Fin cfg0.N, i = grid0.coords t := by
  have hb : grid0.bound 0 = 4 := rfl
  have hlt : (i 0).val < grid0.N := lt_of_lt_of_eq ((i 0).isLt.trans_eq hb) N_0.symm
  refine ⟨⟨(i 0).val, hlt⟩, funext fun a => ?_⟩
  match a with
  | ⟨0, _⟩ =>
    apply Fin.ext
    show (i 0).val = (i 0).val / grid0.stride 0 % grid0.bound 0
    have hs : grid0.stride 0 = 1 := by decide
    have h4 : (i 0).val < 4 := (i 0).isLt.trans_eq hb
    rw [hs, Nat.div_one]; exact (Nat.mod_eq_of_lt (i 0).isLt).symm
theorem live2_all : ∀ i : grid0.Coords, cfg0.idle 2 i = false := by
  intro i
  obtain ⟨t, rfl⟩ := coords_surj i
  exact live2 t

/-! ## What each run leaves in the output buffer -/

/-- The first-point run's one store covers the output block. -/
theorem coverFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : isFirst i) (hc1 : ¬isLater i) (x0 : Vec F S1x4096x3 .f32) (x1 : Vec F S1x3x4096 .f32) (y : S1x1x1.Idx) :
    ∃ pc ∈ (runFirst c i arg1 harg1 arg2 harg2 arg3 harg3 hc0 hc1 x0 x1).1, y ∈ pc.1.set :=
  View.cover_of_tiledL (runFirst c i arg1 harg1 arg2 harg2 arg3 harg3 hc0 hc1 x0 x1).1 S1x1x1.size (by sl_kernel_rfl) y

/-- What the first-point run leaves in the output block: its stores read back. -/
def outFirst (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : isFirst i) (hc1 : ¬isLater i) (x0 : Vec F S1x4096x3 .f32) (x1 : Vec F S1x3x4096 .f32) : Vec F S1x1x1 .f32 :=
  VO.read (Elt F) (VO.writes (Elt F) VO.junk (runFirst c i arg1 harg1 arg2 harg2 arg3 harg3 hc0 hc1 x0 x1).1)

/-- A later-point run's one store covers the output block. -/
theorem coverLater (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬isFirst i) (hc1 : isLater i) (x0 : Vec F S1x4096x3 .f32) (x1 : Vec F S1x3x4096 .f32) (xo : Vec F S1x1x1 .f32) (y : S1x1x1.Idx) :
    ∃ pc ∈ (runLater c i arg1 harg1 arg2 harg2 arg3 harg3 hc0 hc1 x0 x1 xo).1, y ∈ pc.1.set :=
  View.cover_of_tiledL (runLater c i arg1 harg1 arg2 harg2 arg3 harg3 hc0 hc1 x0 x1 xo).1 S1x1x1.size (by sl_kernel_rfl) y

/-- What a later-point run leaves in the output block when it finds `xo` there. -/
def outLater (c : Dev nD) (i : grid0.Coords) (arg1 : Memref sig .tc .vmem S1x4096x3 .f32) (harg1 : arg1.IsWhole)
    (arg2 : Memref sig .tc .vmem S1x3x4096 .f32) (harg2 : arg2.IsWhole) (arg3 : Memref sig .tc .vmem S1x1x1 .f32) (harg3 : arg3.IsWhole)
    (hc0 : ¬isFirst i) (hc1 : isLater i) (x0 : Vec F S1x4096x3 .f32) (x1 : Vec F S1x3x4096 .f32) (xo : Vec F S1x1x1 .f32) : Vec F S1x1x1 .f32 :=
  VO.read (Elt F) (VO.writes (Elt F) VO.junk (runLater c i arg1 harg1 arg2 harg2 arg3 harg3 hc0 hc1 x0 x1 xo).1)

/-! ## The running total, point by point -/

/-- What the output's staging buffer holds after the body at point `n`. -/
def outsAt (c : Dev nD) : (n : ℕ) → n < cfg0.N → Vec F S1x1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((isFirst_iff ⟨0, hn⟩).mpr rfl) (fun h => Nat.not_succ_le_zero 0 ((isLater_iff ⟨0, hn⟩).mp h))
      (iblk m c 0 ⟨0, hn⟩) (iblk m c 1 ⟨0, hn⟩)
  | n + 1, hn => outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
      (fun h => Nat.succ_ne_zero n ((isFirst_iff ⟨n + 1, hn⟩).mp h)) ((isLater_iff ⟨n + 1, hn⟩).mpr (Nat.succ_le_succ (Nat.zero_le n)))
      (iblk m c 0 ⟨n + 1, hn⟩) (iblk m c 1 ⟨n + 1, hn⟩) (outsAt c n (Nat.lt_of_succ_lt hn))

/-- At the first point: the first-point run's contents. -/
theorem outsAt_first (c : Dev nD) (t : Fin cfg0.N) (h0 : t.val = 0) (hl : ¬isLater (grid0.coords t)) :
    outsAt m c t.val t.isLt = outFirst c (grid0.coords t) (ms0 t) (hs0 t) (ms1 t) (hs1 t) (ms2 t) (hs2 t)
      ((isFirst_iff t).mpr h0) hl (iblk m c 0 t) (iblk m c 1 t) := by
  obtain ⟨n, hn⟩ := t
  cases n with
  | zero => rfl
  | succ n => exact absurd h0 (Nat.succ_ne_zero n)

/-- At a later point: the later-point run's contents over what the point before left. -/
theorem outsAt_later (c : Dev nD) (t : Fin cfg0.N) (h0 : t.val ≠ 0) (hf : ¬isFirst (grid0.coords t)) (hl : isLater (grid0.coords t)) :
    outsAt m c t.val t.isLt = outLater c (grid0.coords t) (ms0 t) (hs0 t) (ms1 t) (hs1 t) (ms2 t) (hs2 t)
      hf hl (iblk m c 0 t) (iblk m c 1 t) (outsAt m c (t.val - 1) (Nat.lt_of_le_of_lt (Nat.sub_le _ _) t.isLt)) := by
  obtain ⟨n, hn⟩ := t
  cases n with
  | zero => exact absurd rfl h0
  | succ n => rfl

/-! ## The proof data -/

/-- The arrays as the region finds them; after the body each input's buffer at its block, the output's at the running
    total; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outsAt m c t.val t.isLt := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later point the output's staging buffer holds what the body left at the point before: the buffer is not
    written back before the last point. -/
theorem before2_later (c : Dev nD) (t : Fin cfg0.N) (h0 : t.val ≠ 0) (d) :
    (dats m 0 c).before 2 t d = outsAt m c (t.val - 1) (Nat.lt_of_le_of_lt (Nat.sub_le _ _) t.isLt) := by
  have hN : t.val < 4 := lt_of_lt_of_eq t.isLt (show cfg0.N = 4 from N_0)
  rw [Dat.before_out_kept _ 2 rfl t h0 (Bool.eq_false_iff.mpr fun h => by have := (flush0_2 _).mp h; dsimp only at this; omega)
    live2_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; the point is the first or a later one, and at a
    later one the output's buffer holds the running total; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  have hN : t.val < 4 := lt_of_lt_of_eq t.isLt (show cfg0.N = 4 from N_0)
  by_cases h0 : t.val = 0
  · have hl : ¬isLater (grid0.coords t) := fun h => by have := (isLater_iff t).mp h; omega
    rw [outsAt_first m c t h0 hl]
    unfold outFirst
    iintro ⟨HΦ, Ho, ⟨%d0, H0⟩, ⟨%d1, H1⟩, ⟨%d2, H2⟩⟩
    iapply ((runFirst c (grid0.coords t) _ _ _ _ _ _ ((isFirst_iff t).mpr h0) hl (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · have hf : ¬isFirst (grid0.coords t) := fun h => h0 ((isFirst_iff t).mp h)
    have hl : isLater (grid0.coords t) := (isLater_iff t).mpr (by omega)
    rw [outsAt_later m c t h0 hf hl]
    simp only [before2_later m c t h0]
    unfold outLater
    iintro ⟨HΦ, Ho, ⟨%d0, H0⟩, ⟨%d1, H1⟩, ⟨%d2, H2⟩⟩
    iapply ((runLater c (grid0.coords t) _ _ _ _ _ _ hf hl (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    computes, every other unscoped buffer at what the host lines after the region compute from that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BodyValue.lean ====
/-
  What the kernel's run leaves in its result, as a value.

  Per batch the body computes one number, the batch's contribution, from the batch's two blocks.  The first grid
  point stores it in the one-element output block; every later point stores (what the block held) + (its own
  contribution).  So after point n the block holds the left-to-right sum of the contributions of batches 0 … n.
  The block is written back once, after the last point, and it is the whole [1,1,1] result array; the host line after
  the region reshapes that array to a scalar.
-/
import proofs.«176457_g5248450036648_cont_9to1_m_1041_39_alg».proof.Proof.Body
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl

/-! ## One batch's contribution -/

/-- Rows 0 … 2047 of a block of the first cloud, as the body loads them. -/
abbrev loRows (x0 : Vec F S1x4096x3 .f32) : Vec F S1x2048x3 .f32 :=
  View.ld x0 (Rect.unit (s := S1x4096x3) ![0, 0, 0] S1x2048x3.size inb_S1x4096x3_S1x2048x3_0_0_0)
/-- Rows 2048 … 4095. -/
abbrev hiRows (x0 : Vec F S1x4096x3 .f32) : Vec F S1x2048x3 .f32 :=
  View.ld x0 (Rect.unit (s := S1x4096x3) ![0, 2048, 0] S1x2048x3.size inb_S1x4096x3_S1x2048x3_0_2048_0)

/-- The batch's contribution, from the first cloud's block `x0` and the second cloud's (transposed, pre-scaled) block
    `x1`: the body's arithmetic over its three loads. -/
def contrib (x0 : Vec F S1x4096x3 .f32) (x1 : Vec F S1x3x4096 .f32) : FVec F S1x1 .f32 :=
  k0_pay1
    (k0_pay10 (k0_pay4 x1) (k0_pay5 x1) (k0_pay7 x1 (loRows x0)) (k0_pay8 x1 (loRows x0)) (hiRows x0))
    (k0_pay11 (k0_pay4 x1) (k0_pay5 x1) (k0_pay6 x1 (loRows x0)) (hiRows x0))

/-- The first point leaves the contribution in the output block. -/
theorem outFirst_eq (c : Dev nD) (i : grid0.Coords) (a1 : Memref sig .tc .vmem S1x4096x3 .f32) (h1 : a1.IsWhole)
    (a2 : Memref sig .tc .vmem S1x3x4096 .f32) (h2 : a2.IsWhole) (a3 : Memref sig .tc .vmem S1x1x1 .f32) (h3 : a3.IsWhole)
    (hc0 : isFirst i) (hc1 : ¬isLater i) (x0 : Vec F S1x4096x3 .f32) (x1 : Vec F S1x3x4096 .f32) :
    outFirst c i a1 h1 a2 h2 a3 h3 hc0 hc1 x0 x1 = shapeCast S1x1x1 (contrib x0 x1) shapeCasts_S1x1_S1x1x1 := by
  unfold outFirst
  rw [View.read_writes_eq_canon _ _ _ (coverFirst c i a1 h1 a2 h2 a3 h3 hc0 hc1 x0 x1)]
  unfold runFirst
  dsimp only
  sl_unfold_words
  rw [View.canon_unit_zero hz3]
  simp only [View.readAt_eq_ld, h1.read_unread, h2.read_unread, View.ld_unit_zero (S := S1x3x4096) hz3]
  rfl

/-- A later point leaves (what the block held) + (the contribution). -/
theorem outLater_eq (c : Dev nD) (i : grid0.Coords) (a1 : Memref sig .tc .vmem S1x4096x3 .f32) (h1 : a1.IsWhole)
    (a2 : Memref sig .tc .vmem S1x3x4096 .f32) (h2 : a2.IsWhole) (a3 : Memref sig .tc .vmem S1x1x1 .f32) (h3 : a3.IsWhole)
    (hc0 : ¬isFirst i) (hc1 : isLater i) (x0 : Vec F S1x4096x3 .f32) (x1 : Vec F S1x3x4096 .f32) (xo : Vec F S1x1x1 .f32) :
    outLater c i a1 h1 a2 h2 a3 h3 hc0 hc1 x0 x1 xo
      = shapeCast S1x1x1 (addf (shapeCast S1x1 xo shapeCasts_S1x1x1_S1x1) (contrib x0 x1)) shapeCasts_S1x1_S1x1x1 := by
  unfold outLater
  rw [View.read_writes_eq_canon _ _ _ (coverLater c i a1 h1 a2 h2 a3 h3 hc0 hc1 x0 x1 xo)]
  unfold runLater
  dsimp only
  sl_unfold_words
  rw [View.canon_unit_zero hz3]
  simp only [View.readAt_eq_ld, h1.read_unread, h2.read_unread, h3.read_unread, View.ld_unit_zero (S := S1x3x4096) hz3,
    View.ld_unit_zero (S := S1x1x1) hz3]
  rfl

/-! ## The running total -/

/-- The output block after point `n`: the contributions of batches 0 … n, added left to right. -/
def total (c : Dev nD) : (n : ℕ) → n < cfg0.N → Vec F S1x1x1 .f32
  | 0, h => shapeCast S1x1x1 (contrib (iblk m c 0 ⟨0, h⟩) (iblk m c 1 ⟨0, h⟩)) shapeCasts_S1x1_S1x1x1
  | n + 1, h => shapeCast S1x1x1 (addf (shapeCast S1x1 (total c n (Nat.lt_of_succ_lt h)) shapeCasts_S1x1x1_S1x1)
      (contrib (iblk m c 0 ⟨n + 1, h⟩) (iblk m c 1 ⟨n + 1, h⟩))) shapeCasts_S1x1_S1x1x1

/-- What the staging buffer holds after point `n` is the running total: by induction on the point. -/
theorem outsAt_eq (c : Dev nD) : ∀ (n : ℕ) (h : n < cfg0.N), outsAt m c n h = total m c n h
  | 0, h => (outsAt_first m c ⟨0, h⟩ rfl (fun hl => Nat.not_succ_le_zero 0 ((isLater_iff ⟨0, h⟩).mp hl))).trans (outFirst_eq ..)
  | n + 1, h => by
    rw [outsAt_later m c ⟨n + 1, h⟩ (Nat.succ_ne_zero n) (fun hf => Nat.succ_ne_zero n ((isFirst_iff ⟨n + 1, h⟩).mp hf))
      ((isLater_iff ⟨n + 1, h⟩).mpr (Nat.succ_le_succ (Nat.zero_le n))), outLater_eq]
    show shapeCast S1x1x1 (addf (shapeCast S1x1 (outsAt m c n _) _) _) _ = shapeCast S1x1x1 (addf (shapeCast S1x1 (total m c n _) _) _) _
    rw [outsAt_eq c n]

/-! ## The result array and the scalar after the region -/

/-- The result array's contents: the running total after the last point. -/
abbrev resultBlock (c : Dev nD) : Buf (Elt F) ((c : Thread nD τ).loc main_v3) :=
  total m c 3 (by rw [show cfg0.N = 4 from N_0]; decide)

/-- The one write-back, after point 3, writes it: block (0,0,0) of the [1,1,1] array is the array. -/
theorem flushed_eq (c : Dev nD) (t : Fin cfg0.N) (hf : (cfg0.win 2).flush t = true) :
    (dats m 0 c).flushed 2 t = ((cfg0.win 2).blk t).view.read (Elt F) (resultBlock m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after2, outsAt_eq]
  have hz' : (fun a => win0_2.index t0_3 a * main_v3.ty.shape.size a) = fun _ => 0 := funext fun a => by fin_cases a <;> decide +kernel
  exact (Memref.read_access_unit_zero (Elt F) main_v3 hz' (fun a => by rw [congrFun hz' a]; simp) (resultBlock m c)).symm

/-- So the result array ends holding the running total after the last point. -/
theorem final_out (c : Dev nD) : (dats m 0 c).arrAt 2 cfg0.N = resultBlock m c :=
  (dats m 0 c).arrAt_eq_of_cover 2 (resultBlock m c) (flushed_eq m c) fun i =>
    ⟨t0_3, (flush0_2 t0_3).mpr rfl, by
      show i ∈ ((View.whole main_v3).slice (win0_2.rect t0_3)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega
      | ⟨2, _⟩ => show win0_2.index t0_3 2 * win0_2.size 2 ≤ (i 2 : Nat) ∧ (i 2 : Nat) < win0_2.index t0_3 2 * win0_2.size 2 + win0_2.xsize (grid0.coords t0_3) 2
                  rw [show win0_2.index t0_3 2 * win0_2.size 2 = 0 from by decide +kernel, show win0_2.xsize (grid0.coords t0_3) 2 = 1 from by decide +kernel]; omega⟩

/-- The program's result: the result array reshaped to a scalar. -/
abbrev result (c : Dev nD) : Buf (Elt F) ((c : Thread nD τ).loc main_v4) :=
  shapeCast S_ (resultBlock m c) shapeCasts_S1x1x1_S_

/-- The scalar the host line after the region writes is that reshape of what the region left in the result array. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = resultBlock m c :=
    (Pipeline.withArrays_arr spec0 launch0.win.arr_inj c _ _ 2).trans (final_out m c)
  funext i
  show shapeCast S_ (Pipeline.withArrays (cfgs 0).spec c (V0 m c) (fun w => (dats m 0 c).arrAt w (cfgs 0).N) (Proc.devRef .tc main_v3))
      shapeCasts_S1x1x1_S_ i = _
  rw [e]

/-- The run, read: the result at the reshaped running total, the two argument arrays unchanged. -/
theorem run_value : θ_run defs (onTc (τ := τ) (main (F := F))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Body

end
-- ==== Proof.Spec.lean ====
/-
  The specification. The Chamfer distance of two batches of point clouds, written twice over the extended reals:
  once in the arrangement the reference computes it in, once in the arrangement the kernel computes one batch in.

  A cloud batch is `a bt n d`: batch `bt`, point `n`, coordinate `d`.  For points `p` of the first cloud and `q` of
  the second, the squared distance is expanded as  ‖p‖² + ‖q‖² − 2⟨p,q⟩, clamped below at zero.  `near1` of a point
  of the first cloud is its least clamped distance to the second cloud, `near2` the same the other way round, and the
  result is the mean of `near1` over all 4·4096 points plus the mean of `near2` over all 4·4096 points.

  The kernel sees, per batch, the first cloud `p n d` and the second cloud TRANSPOSED and PRE-SCALED by −2,
  `q d m = −2 · b m d`.  It recovers ‖b‖² as ¼·Σ q², has −2⟨p,b⟩ as Σ p·q, takes the least over each axis BEFORE
  clamping, and scales each batch's two sums by 2⁻¹⁴ = 1/16384.
  Float literals stay bit patterns here; the few that must be evaluated are evaluated where the two arrangements
  are joined.
-/
import Idealize.ShloMosaic.PureOps.Ideal
import Idealize.ShloMosaic.Lib.ValueIdx

noncomputable section

namespace Cert.Chamfer

open Idealize.ShloMosaic

/-- A batch of point clouds: `[batch, point, coordinate]`. -/
abbrev Cloud := Fin 4 → Fin 4096 → Fin 3 → EReal

/-- The literals the two programs spell. -/
abbrev zero : EReal := Ideal.ofBits .f32 0x00000000#32
abbrev posInf : EReal := Ideal.ofBits .f32 0x7F800000#32
abbrev two : EReal := Ideal.ofBits .f32 0x40000000#32
abbrev negTwo : EReal := Ideal.ofBits .f32 0xC0000000#32
abbrev quarter : EReal := Ideal.ofBits .f32 0x3E800000#32
abbrev count : EReal := Ideal.ofBits .f32 0x46800000#32
abbrev invCount : EReal := Ideal.ofBits .f32 0x38800000#32

/-- The least of a family over `Fin 4096`, started at the pattern of +∞: a min-reduction as both programs take it. -/
def least (f : Fin 4096 → EReal) : EReal := (Finset.univ : Finset (Fin 4096)).fold min posInf f

/-! ## The reference's arrangement -/

/-- The clamped squared distance between point `n` of `a` and point `m` of `b` in batch `bt`, as the reference
    writes it: each squared norm a host sum started at zero, the inner product a contraction. -/
def refDist (a b : Cloud) (bt : Fin 4) (n m : Fin 4096) : EReal :=
  max (((zero + ∑ d : Fin 3, a bt n d * a bt n d) + (zero + ∑ d : Fin 3, b bt m d * b bt m d))
        - two * ∑ d : Fin 3, a bt n d * b bt m d) zero

/-- The reference's result: the two means, each a total sum started at zero and divided by the count. -/
def chamferRef (a b : Cloud) : EReal :=
  Ideal.div (zero + ∑ bt : Fin 4, ∑ n : Fin 4096, least fun m => refDist a b bt n m) count
    + Ideal.div (zero + ∑ bt : Fin 4, ∑ m : Fin 4096, least fun n => refDist a b bt n m) count

/-! ## The kernel's arrangement, one batch -/

/-- The unclamped distance as the kernel accumulates it from `p` (points of the first cloud) and `q` (the second
    cloud, coordinate-major, already scaled by −2). -/
def kerAcc (p : Fin 4096 → Fin 3 → EReal) (q : Fin 3 → Fin 4096 → EReal) (n m : Fin 4096) : EReal :=
  ((∑ d : Fin 3, p n d * p n d) + quarter * ∑ d : Fin 3, q d m * q d m) + ∑ d : Fin 3, p n d * q d m

/-- One batch's contribution: both sums of clamped least distances, each scaled by the reciprocal count. -/
def kerPart (p : Fin 4096 → Fin 3 → EReal) (q : Fin 3 → Fin 4096 → EReal) : EReal :=
  (∑ n : Fin 4096, max (least fun m => kerAcc p q n m) zero) * invCount
    + (∑ m : Fin 4096, max (least fun n => kerAcc p q n m) zero) * invCount

/-- Batch `bt` as the kernel is handed it: the first cloud as is, the second transposed and scaled by −2. -/
def kerBatch (a b : Cloud) (bt : Fin 4) : EReal :=
  kerPart (fun n d => a bt n d) (fun d m => negTwo * b bt m d)

/-- The kernel's result: the first batch's contribution, then each later batch's added to the running total. -/
def kerTotal (a b : Cloud) : EReal :=
  ((kerBatch a b 0 + kerBatch a b 1) + kerBatch a b 2) + kerBatch a b 3

/-- The rows of a 4096-point cloud handed over as two tiles of 2048. -/
def rows (lo hi : Fin 2048 → Fin 3 → EReal) : Fin 4096 → Fin 3 → EReal :=
  fun n d => if h : n.val < 2048 then lo ⟨n.val, h⟩ d else hi ⟨n.val - 2048, by omega⟩ d

end Cert.Chamfer

end
-- ==== Proof.LibHalving.lean ====
/-
  Sums and least-folds over an index range of even length, read through its two halves.

  For `n = h + h` an index `i : Fin n` is either `j` or `h + j` with `j : Fin h`.  A sum over `Fin n` is the sum of
  the two half sums, hence the sum over `Fin h` of the entrywise sums of the halves; a fold of `min` from a start
  value `b` is the `min` of the two half folds, hence (`min` being idempotent on `b`) the fold over `Fin h` of the
  entrywise minima.  Read backwards these collapse a halving tree: adding (or taking the minimum of) the two halves of a
  row again and again, then reducing what is left, is reducing the whole row.

  The second part reads a `minimumf` reduction over one axis, at the ideal values, as such a fold; the third states the
  halving steps of a matrix at the ideal values, whose column halves are cut out by unit-stride slices and combined
  entrywise.
-/
import Idealize.ShloMosaic.PureOps.Ideal
import Idealize.ShloMosaic.PureOps.Ideal.Laws
import Idealize.ShloMosaic.Lib.ValueIdx
import Idealize.ShloMosaic.Lib.ValueLayout

namespace Cert.Halving

open Idealize.ShloMosaic Idealize.ShloMosaic.ValueIdx

/-! ## Index ranges of even length -/

/-- A sum over `Fin (h + h)` is the sum over the lower half plus the sum over the upper half. -/
theorem sum_split_halves {M : Type*} [AddCommMonoid M] {n h : ℕ} (hn : n = h + h) (f : Fin n → M) :
    ∑ i : Fin n, f i
      = (∑ j : Fin h, f ⟨j.val, by omega⟩) + ∑ j : Fin h, f ⟨h + j.val, by omega⟩ := by
  subst hn
  rw [Fin.sum_univ_add]
  rfl

/-- A sum over `Fin (h + h)` is the sum over `Fin h` of the two halves added entry by entry. -/
theorem sum_halve {M : Type*} [AddCommMonoid M] {n h : ℕ} (hn : n = h + h) (f : Fin n → M) :
    ∑ i : Fin n, f i = ∑ j : Fin h, (f ⟨j.val, by omega⟩ + f ⟨h + j.val, by omega⟩) := by
  rw [sum_split_halves hn, Finset.sum_add_distrib]

/-- A fold of `min` over `Fin (h + h)` is the `min` of the folds over the two halves, each from the same start. -/
theorem fold_min_split_halves {α : Type*} [LinearOrder α] {n h : ℕ} (hn : n = h + h) (b : α) (f : Fin n → α) :
    (Finset.univ : Finset (Fin n)).fold min b f
      = min ((Finset.univ : Finset (Fin h)).fold min b fun j => f ⟨j.val, by omega⟩)
            ((Finset.univ : Finset (Fin h)).fold min b fun j => f ⟨h + j.val, by omega⟩) := by
  refine eq_of_forall_le_iff fun c => ?_
  rw [le_min_iff, Finset.le_fold_min, Finset.le_fold_min, Finset.le_fold_min]
  constructor
  · rintro ⟨hb, hf⟩
    exact ⟨⟨hb, fun j _ => hf _ (Finset.mem_univ _)⟩, hb, fun j _ => hf _ (Finset.mem_univ _)⟩
  · rintro ⟨⟨hb, h1⟩, _, h2⟩
    refine ⟨hb, fun i _ => ?_⟩
    by_cases hi : i.val < h
    · exact h1 ⟨i.val, hi⟩ (Finset.mem_univ _)
    · have h3 := h2 ⟨i.val - h, by have := i.isLt; omega⟩ (Finset.mem_univ _)
      have e : (⟨h + (i.val - h), by have := i.isLt; omega⟩ : Fin n) = i := Fin.ext (by show h + (i.val - h) = i.val; omega)
      rwa [e] at h3

/-- A fold of `min` over `Fin (h + h)` is the fold over `Fin h` of the entrywise minima of the two halves. -/
theorem fold_min_halve {α : Type*} [LinearOrder α] {n h : ℕ} (hn : n = h + h) (b : α) (f : Fin n → α) :
    (Finset.univ : Finset (Fin n)).fold min b f
      = (Finset.univ : Finset (Fin h)).fold min b fun j => min (f ⟨j.val, by omega⟩) (f ⟨h + j.val, by omega⟩) := by
  have e := Finset.fold_op_distrib (op := min) (s := (Finset.univ : Finset (Fin h)))
    (f := fun j => f ⟨j.val, by omega⟩) (g := fun j => f ⟨h + j.val, by omega⟩) (b₁ := b) (b₂ := b)
  rw [min_self] at e
  rw [fold_min_split_halves hn]
  exact e.symm

/-! ## A least over one axis at the ideal values -/

/-- A `minimumf` reduction over one axis, read at the ideal values: the fold of `min`, from the accumulator's value, over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The column halves of a matrix at the ideal values -/

variable {φ : FTy} {n0 n1 m : ℕ}

/-- The entrywise minimum of a matrix's two column halves, read at `(a, j)`. -/
theorem minimumf_halves_apply (X : FVec Ideal ⟨2, ![n0, n1]⟩ φ)
    (h0 : (⟨2, ![n0, n1]⟩ : Shape).Slices ![0, 0] ⟨2, ![n0, m]⟩)
    (h1 : (⟨2, ![n0, n1]⟩ : Shape).Slices ![0, m] ⟨2, ![n0, m]⟩) (hn : n1 = m + m) (a : Fin n0) (j : Fin m) :
    minimumf (extractStridedSlice ⟨2, ![n0, m]⟩ ![0, 0] X h0) (extractStridedSlice ⟨2, ![n0, m]⟩ ![0, m] X h1) (ix2 a j)
      = min (X (ix2 a ⟨j.val, by omega⟩)) (X (ix2 a ⟨m + j.val, by omega⟩)) := by
  rw [minimumf_apply, slice2_axis1_apply 0 X h0 a j ⟨j.val, by omega⟩ (Nat.zero_add _).symm,
    slice2_axis1_apply m X h1 a j ⟨m + j.val, by omega⟩ rfl]

/-- The entrywise sum of a matrix's two column halves, read at `(a, j)`. -/
theorem addf_halves_apply (X : FVec Ideal ⟨2, ![n0, n1]⟩ φ)
    (h0 : (⟨2, ![n0, n1]⟩ : Shape).Slices ![0, 0] ⟨2, ![n0, m]⟩)
    (h1 : (⟨2, ![n0, n1]⟩ : Shape).Slices ![0, m] ⟨2, ![n0, m]⟩) (hn : n1 = m + m) (a : Fin n0) (j : Fin m) :
    addf (extractStridedSlice ⟨2, ![n0, m]⟩ ![0, 0] X h0) (extractStridedSlice ⟨2, ![n0, m]⟩ ![0, m] X h1) (ix2 a j)
      = X (ix2 a ⟨j.val, by omega⟩) + X (ix2 a ⟨m + j.val, by omega⟩) := by
  rw [addf_apply, slice2_axis1_apply 0 X h0 a j ⟨j.val, by omega⟩ (Nat.zero_add _).symm,
    slice2_axis1_apply m X h1 a j ⟨m + j.val, by omega⟩ rfl]

/-- One step of a halving tree of minima: the least, from `b`, of row `a` of the halved matrix is the least of row `a`
    of the matrix. -/
theorem fold_min_halves (X : FVec Ideal ⟨2, ![n0, n1]⟩ φ)
    (h0 : (⟨2, ![n0, n1]⟩ : Shape).Slices ![0, 0] ⟨2, ![n0, m]⟩)
    (h1 : (⟨2, ![n0, n1]⟩ : Shape).Slices ![0, m] ⟨2, ![n0, m]⟩) (hn : n1 = m + m) (b : EReal) (a : Fin n0) :
    ((Finset.univ : Finset (Fin m)).fold min b fun j =>
        minimumf (extractStridedSlice ⟨2, ![n0, m]⟩ ![0, 0] X h0) (extractStridedSlice ⟨2, ![n0, m]⟩ ![0, m] X h1) (ix2 a j))
      = (Finset.univ : Finset (Fin n1)).fold min b fun c => X (ix2 a c) := by
  rw [fold_min_halve hn b fun c => X (ix2 a c)]
  exact Finset.fold_congr fun j _ => minimumf_halves_apply X h0 h1 hn a j

/-- One step of a halving tree of sums: the sum of row `a` of the halved matrix is the sum of row `a` of the matrix. -/
theorem sum_halves (X : FVec Ideal ⟨2, ![n0, n1]⟩ φ)
    (h0 : (⟨2, ![n0, n1]⟩ : Shape).Slices ![0, 0] ⟨2, ![n0, m]⟩)
    (h1 : (⟨2, ![n0, n1]⟩ : Shape).Slices ![0, m] ⟨2, ![n0, m]⟩) (hn : n1 = m + m) (a : Fin n0) :
    (∑ j : Fin m,
        addf (extractStridedSlice ⟨2, ![n0, m]⟩ ![0, 0] X h0) (extractStridedSlice ⟨2, ![n0, m]⟩ ![0, m] X h1) (ix2 a j))
      = ∑ c : Fin n1, X (ix2 a c) := by
  rw [sum_halve hn fun c => X (ix2 a c)]
  exact Finset.sum_congr rfl fun j _ => addf_halves_apply X h0 h1 hn a j

end Cert.Halving
-- ==== Proof.TileValue.lean ====
/-
  One batch's arithmetic at the ideal values, read at its one index.

  The second operand's block is `q d m` (coordinate `d`, point `m` of the second cloud, already scaled); the first
  cloud's 4096 points arrive as two row tiles of 2048.  For a tile `x` the accumulated distance at `(r, c)` is
      (Σ_d x[r,d]²  +  ¼ · Σ_d q[d,c]²)  +  Σ_d x[r,d] · q[d,c]
  (`pay6_apply`), and both tiles use the one expression (`pay9_eq`).

  Rows.  A tile's row minima are taken by halving the 4096 columns five times with entrywise minima and reducing the
  128 columns left from +∞; a fold of `min` over an even range is the fold over half the range of the entrywise minima
  of the halves, so the whole is the least over all 4096 columns, then clamped at zero (`rowLeast_apply`).  The 2048
  clamped values are folded into 128 lanes by four halving additions, which keeps their sum (`laneSum_sum`); the two
  tiles' lanes are added, and the 128 lanes summed: the sum over all 4096 points of the clamped least distance.

  Columns.  Each tile's column minima are a fold of `min` from +∞ over its 2048 rows; the lesser of the two tiles' is
  the least over all 4096 rows, `min` being idempotent on the shared start value.

  `point_value` joins the two sums, each scaled by the reciprocal count, to the specification's `kerPart`.
-/
import proofs.«176457_g5248450036648_cont_9to1_m_1041_39_alg».proof.Proof.Spec
import proofs.«176457_g5248450036648_cont_9to1_m_1041_39_alg».proof.Proof.Gen.KernelIdeal.Skeleton
import proofs.«176457_g5248450036648_cont_9to1_m_1041_39_alg».proof.Proof.LibHalving
import Idealize.ShloMosaic.PureOps.Ideal.Laws
import Idealize.ShloMosaic.Lib.ValueLayout

set_option synthInstance.maxSize 4096

noncomputable section

namespace Cert.KernelIdeal.TileValue

open Cert.KernelIdeal Cert.KernelIdeal.Gen Cert.Chamfer Idealize.ShloMosaic Idealize.ShloMosaic.ValueIdx

/-! ## The accumulated distance of one row tile, read at a row and a column -/

/-- The second operand's block without its unit axis: coordinate `d`, column `c`. -/
theorem pay4_apply (v0 : Vec Ideal S1x3x4096 .f32) (d : Fin 3) (c : Fin 4096) :
    k0_pay4 (F := Ideal) v0 (ix2 d c) = v0 (ix3 0 d c) :=
  shapeCast_1ab_ab_apply v0 _ d c

/-- Over result index `c` of a sum down the three rows of a `[3, 4096]` matrix, the source index with row `k`. -/
theorem lift_rows (c : Fin 4096) (k : Fin 3) :
    (reduces_S3x4096_S4096 : S3x4096.Reduces [0] S4096).lift (ix1 c) k = ix2 k c :=
  funext fun a => Fin.ext (by
    match a with
    | ⟨0, _⟩ => rfl
    | ⟨1, _⟩ => rfl)

/-- Over result index `r` of a sum along the three columns of a `[2048, 3]` matrix, the source index with column `k`. -/
theorem lift_cols (r : Fin 2048) (k : Fin 3) :
    (reduces_S2048x3_S2048 : S2048x3.Reduces [1] S2048).lift (ix1 r) k = ix2 r k :=
  funext fun a => Fin.ext (by
    match a with
    | ⟨0, _⟩ => rfl
    | ⟨1, _⟩ => rfl)

/-- A quarter of the squared norm of column `c` of the second operand: the squared norm of the point it was scaled from. -/
theorem pay5_apply (v0 : Vec Ideal S1x3x4096 .f32) (c : Fin 4096) :
    k0_pay5 (F := Ideal) v0 (ix2 0 c) = quarter * ∑ d : Fin 3, v0 (ix3 0 d c) * v0 (ix3 0 d c) := by
  unfold k0_pay5
  refine congrArg (quarter * ·) ?_
  refine (shapeCast_a_1a_apply _ _ 0 c).trans ?_
  refine (Ideal.multiReduction_add_single _ _ _ _ _ _).trans ?_
  refine Finset.sum_congr rfl fun k _ => ?_
  rw [lift_rows c k, mulf_apply]
  exact congrArg₂ (· * ·) (pay4_apply v0 k c) (pay4_apply v0 k c)

/-- The first operand's tile without its unit axis: point `r`, coordinate `d`. -/
theorem tile_apply (x : Vec Ideal S1x2048x3 .f32) (r : Fin 2048) (d : Fin 3) :
    shapeCast S2048x3 x shapeCasts_S1x2048x3_S2048x3 (ix2 r d) = x (ix3 0 r d) :=
  shapeCast_1ab_ab_apply x _ r d

theorem lhs_dot_0 (i : S2048x4096.Idx) (q : dot_S2048x3_S3x4096_S2048x4096_1_0_0_1_n_n.contr.Idx) :
    (dot_S2048x3_S3x4096_S2048x4096_1_0_0_1_n_n.lhsIdx i q 0).val = (i 0).val := by
  unfold DotDims.lhsIdx
  rw [dif_neg (show ¬(0 : Fin S2048x3.rank) ∈ dot_S2048x3_S3x4096_S2048x4096_1_0_0_1_n_n.lhsBatch by decide),
    dif_pos (show (0 : Fin S2048x3.rank) ∈ dot_S2048x3_S3x4096_S2048x4096_1_0_0_1_n_n.lhsNonContracting by decide)]
  rfl

theorem lhs_dot_1 (i : S2048x4096.Idx) (q : dot_S2048x3_S3x4096_S2048x4096_1_0_0_1_n_n.contr.Idx) :
    (dot_S2048x3_S3x4096_S2048x4096_1_0_0_1_n_n.lhsIdx i q 1).val = (q ⟨0, by decide⟩).val :=
  dot_S2048x3_S3x4096_S2048x4096_1_0_0_1_n_n.lhsIdx_val_of_single rfl i q

theorem rhs_dot_0 (i : S2048x4096.Idx) (q : dot_S2048x3_S3x4096_S2048x4096_1_0_0_1_n_n.contr.Idx) :
    (dot_S2048x3_S3x4096_S2048x4096_1_0_0_1_n_n.rhsIdx i q 0).val = (q ⟨0, by decide⟩).val :=
  dot_S2048x3_S3x4096_S2048x4096_1_0_0_1_n_n.rhsIdx_val_of_single rfl i q

theorem rhs_dot_1 (i : S2048x4096.Idx) (q : dot_S2048x3_S3x4096_S2048x4096_1_0_0_1_n_n.contr.Idx) :
    (dot_S2048x3_S3x4096_S2048x4096_1_0_0_1_n_n.rhsIdx i q 1).val = (i 1).val := by
  unfold DotDims.rhsIdx
  rw [dif_neg (show ¬(1 : Fin S3x4096.rank) ∈ dot_S2048x3_S3x4096_S2048x4096_1_0_0_1_n_n.rhsBatch by decide),
    dif_pos (show (1 : Fin S3x4096.rank) ∈ dot_S2048x3_S3x4096_S2048x4096_1_0_0_1_n_n.rhsNonContracting by decide)]
  rfl

/-- The block product into the zero splat, read at `(r, c)`: the inner product of row `r` and column `c`. -/
theorem dot_apply (L : FVec Ideal S2048x3 .f32) (R : FVec Ideal S3x4096 .f32) (r : Fin 2048) (c : Fin 4096) :
    matmul dot_S2048x3_S3x4096_S2048x4096_1_0_0_1_n_n none L R (constant S2048x4096 .f32 0x00000000#32) (ix2 r c)
      = ∑ k : Fin 3, L (ix2 r k) * R (ix2 k c) := by
  refine (Ideal.matmul_constant_zero_apply _ _ _ _ _).trans ?_
  rw [← Equiv.sum_comp (ValueIdx.contrEquiv1 dot_S2048x3_S3x4096_S2048x4096_1_0_0_1_n_n 3 rfl rfl).symm]
  refine Finset.sum_congr rfl fun k _ => ?_
  have hk := ValueIdx.contrEquiv1_symm_val dot_S2048x3_S3x4096_S2048x4096_1_0_0_1_n_n 3 rfl rfl k
  have el : dot_S2048x3_S3x4096_S2048x4096_1_0_0_1_n_n.lhsIdx (ix2 r c)
      ((ValueIdx.contrEquiv1 dot_S2048x3_S3x4096_S2048x4096_1_0_0_1_n_n 3 rfl rfl).symm k) = ix2 r k :=
    funext fun a => Fin.ext (by
      match a with
      | ⟨0, _⟩ => exact lhs_dot_0 _ _
      | ⟨1, _⟩ => exact (lhs_dot_1 _ _).trans hk)
  have er : dot_S2048x3_S3x4096_S2048x4096_1_0_0_1_n_n.rhsIdx (ix2 r c)
      ((ValueIdx.contrEquiv1 dot_S2048x3_S3x4096_S2048x4096_1_0_0_1_n_n 3 rfl rfl).symm k) = ix2 k c :=
    funext fun a => Fin.ext (by
      match a with
      | ⟨0, _⟩ => exact (rhs_dot_0 _ _).trans hk
      | ⟨1, _⟩ => exact rhs_dot_1 _ _)
  rw [el, er]

/-- A column `[2048, 1]` broadcast along the rows reads, at `(r, c)`, its entry `r`. -/
theorem bcast_col_apply (v : FVec Ideal S2048x1 .f32) (r : Fin 2048) (c : Fin 4096) :
    broadcastTo S2048x4096 v broadcasts_S2048x1_S2048x4096 (ix2 r c) = v (ix2 r 0) :=
  broadcastTo_apply v _ (ix2 r c) (ix2 r 0) fun a => match a with
    | ⟨0, _⟩ => by show r.val = if (2048 : ℕ) = 1 then 0 else r.val; rw [if_neg (by decide)]
    | ⟨1, _⟩ => by show 0 = if (1 : ℕ) = 1 then 0 else c.val; rw [if_pos rfl]

/-- A vector `[2048]` as a column `[2048, 1]` reads, at `(r, 0)`, its entry `r`. -/
theorem col_apply (v : FVec Ideal S2048 .f32) (r : Fin 2048) :
    shapeCast S2048x1 v shapeCasts_S2048_S2048x1 (ix2 r 0) = v (ix1 r) :=
  shapeCast_apply v _ (ix2 r 0) (ix1 r) (by
    rw [Shape.rowMajor_val_one, Shape.rowMajor_val_two]
    show r.val = r.val * 1 + 0
    omega)

/-- The distance one tile accumulates, at point `r` of the tile and point `c` of the second cloud: the two squared
    norms (the second recovered as a quarter of the scaled column's) plus the inner product with the scaled column. -/
theorem pay6_apply (v0 : Vec Ideal S1x3x4096 .f32) (x : Vec Ideal S1x2048x3 .f32) (r : Fin 2048) (c : Fin 4096) :
    k0_pay6 (F := Ideal) v0 x (ix2 r c)
      = ((∑ d : Fin 3, x (ix3 0 r d) * x (ix3 0 r d)) + quarter * ∑ d : Fin 3, v0 (ix3 0 d c) * v0 (ix3 0 d c))
          + ∑ d : Fin 3, x (ix3 0 r d) * v0 (ix3 0 d c) := by
  unfold k0_pay6
  refine congrArg₂ (· + ·) (congrArg₂ (· + ·) ?_ ?_) ?_
  · refine (bcast_col_apply _ r c).trans ((col_apply _ r).trans ?_)
    refine (Ideal.multiReduction_add_single _ _ _ _ _ _).trans ?_
    refine Finset.sum_congr rfl fun k _ => ?_
    rw [lift_cols r k, mulf_apply]
    exact congrArg₂ (· * ·) (tile_apply x r k) (tile_apply x r k)
  · exact (broadcastTo_1b_ab_apply _ _ r c).trans (pay5_apply v0 c)
  · refine (dot_apply _ _ r c).trans ?_
    refine Finset.sum_congr rfl fun k _ => ?_
    exact congrArg₂ (· * ·) (tile_apply x r k) (pay4_apply v0 k c)

/-- The second tile's distance is the first's at its own rows: the two are one expression. -/
theorem pay9_eq (v0 : Vec Ideal S1x3x4096 .f32) (x : Vec Ideal S1x2048x3 .f32) :
    k0_pay9 (F := Ideal) (k0_pay4 v0) (k0_pay5 v0) x = k0_pay6 v0 x := rfl

/-! ## A tile's row minima, clamped, and their lane sums -/

/-- The clamped least of each row of a tile as the body forms it: the columns halved five times by entrywise minima,
    the 128 columns left reduced from `+∞`, the result clamped below at zero. -/
def rowLeast (A : FVec Ideal S2048x4096 .f32) : FVec Ideal S1x2048 .f32 :=
  have m1 : FVec Ideal S2048x2048 .f32 := minimumf (extractStridedSlice S2048x2048 ![0, 0] A slices_S2048x4096_o0_0_S2048x2048) (extractStridedSlice S2048x2048 ![0, 2048] A slices_S2048x4096_o0_2048_S2048x2048)
  have m2 : FVec Ideal S2048x1024 .f32 := minimumf (extractStridedSlice S2048x1024 ![0, 0] m1 slices_S2048x2048_o0_0_S2048x1024) (extractStridedSlice S2048x1024 ![0, 1024] m1 slices_S2048x2048_o0_1024_S2048x1024)
  have m3 : FVec Ideal S2048x512 .f32 := minimumf (extractStridedSlice S2048x512 ![0, 0] m2 slices_S2048x1024_o0_0_S2048x512) (extractStridedSlice S2048x512 ![0, 512] m2 slices_S2048x1024_o0_512_S2048x512)
  have m4 : FVec Ideal S2048x256 .f32 := minimumf (extractStridedSlice S2048x256 ![0, 0] m3 slices_S2048x512_o0_0_S2048x256) (extractStridedSlice S2048x256 ![0, 256] m3 slices_S2048x512_o0_256_S2048x256)
  have m5 : FVec Ideal S2048x128 .f32 := minimumf (extractStridedSlice S2048x128 ![0, 0] m4 slices_S2048x256_o0_0_S2048x128) (extractStridedSlice S2048x128 ![0, 128] m4 slices_S2048x256_o0_128_S2048x128)
  maximumf
    (shapeCast S1x2048
      (multiReduction .minimumf [0] S2048 (transpose S128x2048 [1, 0] m5 transposes_S2048x128_p1_0_S128x2048) 0x7F800000#32
        reduces_S128x2048_S2048 (.inl rfl) rfl)
      shapeCasts_S2048_S1x2048)
    (broadcast S1x2048 (Scalar.ofBits .f32 0x00000000#32))

/-- Over result index `r` of a reduction down the 128 rows of a `[128, 2048]` matrix, the source index with row `l`. -/
theorem lift_lanes (r : Fin 2048) (l : Fin 128) :
    (reduces_S128x2048_S2048 : S128x2048.Reduces [0] S2048).lift (ix1 r) l = ix2 l r :=
  funext fun a => Fin.ext (by
    match a with
    | ⟨0, _⟩ => rfl
    | ⟨1, _⟩ => rfl)

/-- The 128 columns a halving tree leaves, transposed and reduced from `+∞`: the least of row `r` of what is left. -/
theorem lanesLeast_apply (M : FVec Ideal S2048x128 .f32) (r : Fin 2048) :
    shapeCast S1x2048
        (multiReduction .minimumf [0] S2048 (transpose S128x2048 [1, 0] M transposes_S2048x128_p1_0_S128x2048) 0x7F800000#32
          reduces_S128x2048_S2048 (.inl rfl) rfl)
        shapeCasts_S2048_S1x2048 (ix2 0 r)
      = (Finset.univ : Finset (Fin 128)).fold min posInf fun l => M (ix2 r l) := by
  refine (shapeCast_a_1a_apply _ _ 0 r).trans ?_
  refine (Cert.Halving.multiReduction_minimumf_single _ _ _ _ _ _).trans ?_
  exact Finset.fold_congr fun l _ =>
    (congrArg (transpose S128x2048 [1, 0] M transposes_S2048x128_p1_0_S128x2048) (lift_lanes r l)).trans
      (transpose_ix2_apply _ _ l r)

/-- The halving tree and the last reduction together take the least of the whole row; then the clamp. -/
theorem rowLeast_apply (A : FVec Ideal S2048x4096 .f32) (r : Fin 2048) :
    rowLeast A (ix2 0 r) = max (least fun c => A (ix2 r c)) zero := by
  unfold rowLeast
  refine (maximumf_apply _ _ _).trans (congrArg₂ max ?_ rfl)
  refine (lanesLeast_apply _ r).trans ?_
  refine (Cert.Halving.fold_min_halves _ _ _ (show (256 : ℕ) = 128 + 128 from rfl) posInf r).trans ?_
  refine (Cert.Halving.fold_min_halves _ _ _ (show (512 : ℕ) = 256 + 256 from rfl) posInf r).trans ?_
  refine (Cert.Halving.fold_min_halves _ _ _ (show (1024 : ℕ) = 512 + 512 from rfl) posInf r).trans ?_
  refine (Cert.Halving.fold_min_halves _ _ _ (show (2048 : ℕ) = 1024 + 1024 from rfl) posInf r).trans ?_
  exact Cert.Halving.fold_min_halves _ _ _ (show (4096 : ℕ) = 2048 + 2048 from rfl) posInf r

/-- A row of 2048 values folded into 128 lanes by four halving additions. -/
def laneSum (R : FVec Ideal S1x2048 .f32) : FVec Ideal S1x128 .f32 :=
  have a1 : FVec Ideal S1x1024 .f32 := addf (extractStridedSlice S1x1024 ![0, 0] R slices_S1x2048_o0_0_S1x1024) (extractStridedSlice S1x1024 ![0, 1024] R slices_S1x2048_o0_1024_S1x1024)
  have a2 : FVec Ideal S1x512 .f32 := addf (extractStridedSlice S1x512 ![0, 0] a1 slices_S1x1024_o0_0_S1x512) (extractStridedSlice S1x512 ![0, 512] a1 slices_S1x1024_o0_512_S1x512)
  have a3 : FVec Ideal S1x256 .f32 := addf (extractStridedSlice S1x256 ![0, 0] a2 slices_S1x512_o0_0_S1x256) (extractStridedSlice S1x256 ![0, 256] a2 slices_S1x512_o0_256_S1x256)
  addf (extractStridedSlice S1x128 ![0, 0] a3 slices_S1x256_o0_0_S1x128) (extractStridedSlice S1x128 ![0, 128] a3 slices_S1x256_o0_128_S1x128)

/-- The 128 lanes sum to what the 2048 values sum to. -/
theorem laneSum_sum (R : FVec Ideal S1x2048 .f32) :
    ∑ l : Fin 128, laneSum R (ix2 0 l) = ∑ r : Fin 2048, R (ix2 0 r) := by
  unfold laneSum
  refine (Cert.Halving.sum_halves _ _ _ (show (256 : ℕ) = 128 + 128 from rfl) 0).trans ?_
  refine (Cert.Halving.sum_halves _ _ _ (show (512 : ℕ) = 256 + 256 from rfl) 0).trans ?_
  refine (Cert.Halving.sum_halves _ _ _ (show (1024 : ℕ) = 512 + 512 from rfl) 0).trans ?_
  exact Cert.Halving.sum_halves _ _ _ (show (2048 : ℕ) = 1024 + 1024 from rfl) 0

/-- The two tiles' lanes, added: the body's lane accumulator after the second tile. -/
theorem pay10_eq (v0 : Vec Ideal S1x3x4096 .f32) (v7 v51 : Vec Ideal S1x2048x3 .f32) :
    k0_pay10 (F := Ideal) (k0_pay4 v0) (k0_pay5 v0) (k0_pay7 v0 v7) (k0_pay8 v0 v7) v51
      = addf (laneSum (rowLeast (k0_pay6 v0 v7))) (laneSum (rowLeast (k0_pay6 v0 v51))) := rfl

/-! ## A tile's column minima -/

/-- Over result index `m` of a reduction down the 2048 rows of a tile, the source index with row `r`. -/
theorem lift_down (m : Fin 4096) (r : Fin 2048) :
    (reduces_S2048x4096_S4096 : S2048x4096.Reduces [0] S4096).lift (ix1 m) r = ix2 r m :=
  funext fun a => Fin.ext (by
    match a with
    | ⟨0, _⟩ => rfl
    | ⟨1, _⟩ => rfl)

/-- The least, from `+∞`, of column `m` of a tile. -/
theorem colLeast_apply (A : FVec Ideal S2048x4096 .f32) (m : Fin 4096) :
    shapeCast S1x4096 (multiReduction .minimumf [0] S4096 A 0x7F800000#32 reduces_S2048x4096_S4096 (.inl rfl) rfl)
        shapeCasts_S4096_S1x4096 (ix2 0 m)
      = (Finset.univ : Finset (Fin 2048)).fold min posInf fun r => A (ix2 r m) := by
  refine (shapeCast_a_1a_apply _ _ 0 m).trans ?_
  refine (Cert.Halving.multiReduction_minimumf_single _ _ _ _ _ _).trans ?_
  exact Finset.fold_congr fun r _ => congrArg A (lift_down m r)

/-- The two tiles' column minima, combined: the body's column accumulator after the second tile. -/
theorem pay11_apply (v0 : Vec Ideal S1x3x4096 .f32) (v7 v51 : Vec Ideal S1x2048x3 .f32) (m : Fin 4096) :
    k0_pay11 (F := Ideal) (k0_pay4 v0) (k0_pay5 v0) (k0_pay6 v0 v7) v51 (ix2 0 m)
      = min ((Finset.univ : Finset (Fin 2048)).fold min posInf fun r => k0_pay6 (F := Ideal) v0 v7 (ix2 r m))
            ((Finset.univ : Finset (Fin 2048)).fold min posInf fun r => k0_pay6 (F := Ideal) v0 v51 (ix2 r m)) := by
  unfold k0_pay11
  refine (minimumf_apply _ _ _).trans ?_
  exact congrArg₂ min (colLeast_apply (k0_pay6 v0 v7) m) (colLeast_apply (k0_pay6 v0 v51) m)

/-! ## The batch's contribution from the two accumulators -/

theorem lift_lane128 (l : Fin 128) :
    (reduces_S1x128_S1 : S1x128.Reduces [1] S1).lift (ix1 0) l = ix2 0 l :=
  funext fun a => Fin.ext (by
    match a with
    | ⟨0, _⟩ => rfl
    | ⟨1, _⟩ => rfl)

theorem lift_lane4096 (m : Fin 4096) :
    (reduces_S1x4096_S1 : S1x4096.Reduces [1] S1).lift (ix1 0) m = ix2 0 m :=
  funext fun a => Fin.ext (by
    match a with
    | ⟨0, _⟩ => rfl
    | ⟨1, _⟩ => rfl)

/-- The lanes summed and scaled, plus the clamped column minima summed and scaled. -/
theorem pay1_apply (V95 : FVec Ideal S1x128 .f32) (V96 : FVec Ideal S1x4096 .f32) :
    k0_pay1 (F := Ideal) V95 V96 (ix2 0 0)
      = (∑ l : Fin 128, V95 (ix2 0 l)) * invCount + (∑ m : Fin 4096, max (V96 (ix2 0 m)) zero) * invCount := by
  unfold k0_pay1
  refine (addf_apply _ _ _).trans (congrArg₂ (· + ·) ?_ ?_)
  · refine (mulf_apply _ _ _).trans (congrArg₂ (· * ·) ?_ rfl)
    refine (shapeCast_a_1a_apply _ _ 0 0).trans ?_
    refine (Ideal.multiReduction_add_single _ _ _ _ _ _).trans ?_
    exact Finset.sum_congr rfl fun l _ => congrArg V95 (lift_lane128 l)
  · refine (mulf_apply _ _ _).trans (congrArg₂ (· * ·) ?_ rfl)
    refine (shapeCast_a_1a_apply _ _ 0 0).trans ?_
    refine (Ideal.multiReduction_add_single _ _ _ _ _ _).trans ?_
    exact Finset.sum_congr rfl fun m _ => (congrArg _ (lift_lane4096 m)).trans (maximumf_apply _ _ _)

/-! ## The whole chain against the specification -/

/-- A row of the lower tile, read through the cloud the two tiles make up. -/
theorem rows_lo (lo hi : Fin 2048 → Fin 3 → EReal) (r : Fin 2048) (h : r.val < 4096) (d : Fin 3) :
    rows lo hi ⟨r.val, h⟩ d = lo r d := by
  unfold rows
  exact dif_pos r.isLt

/-- A row of the upper tile, read through the cloud the two tiles make up. -/
theorem rows_hi (lo hi : Fin 2048 → Fin 3 → EReal) (r : Fin 2048) (h : 2048 + r.val < 4096) (d : Fin 3) :
    rows lo hi ⟨2048 + r.val, h⟩ d = hi r d := by
  unfold rows
  rw [dif_neg (show ¬ (2048 + r.val < 2048) by omega)]
  exact congrArg (fun n => hi n d) (Fin.ext (show 2048 + r.val - 2048 = r.val by omega))

section

variable (v0 : Vec Ideal S1x3x4096 .f32) (v7 v51 : Vec Ideal S1x2048x3 .f32)

/-- The lower tile's accumulated distance is the specification's at the cloud's first 2048 points. -/
theorem acc_lo (r : Fin 2048) (h : r.val < 4096) (c : Fin 4096) :
    k0_pay6 (F := Ideal) v0 v7 (ix2 r c)
      = kerAcc (rows (fun n d => v7 (ix3 0 n d)) (fun n d => v51 (ix3 0 n d))) (fun d m => v0 (ix3 0 d m)) ⟨r.val, h⟩ c := by
  rw [pay6_apply]
  unfold kerAcc
  simp only [rows_lo]

/-- The upper tile's accumulated distance is the specification's at the cloud's last 2048 points. -/
theorem acc_hi (r : Fin 2048) (h : 2048 + r.val < 4096) (c : Fin 4096) :
    k0_pay6 (F := Ideal) v0 v51 (ix2 r c)
      = kerAcc (rows (fun n d => v7 (ix3 0 n d)) (fun n d => v51 (ix3 0 n d))) (fun d m => v0 (ix3 0 d m)) ⟨2048 + r.val, h⟩ c := by
  rw [pay6_apply]
  unfold kerAcc
  simp only [rows_hi]

/-- The body's arithmetic for one batch, read at its one index: the specification's contribution of that batch, the
    first cloud being the two row tiles one after the other and the second operand the scaled, transposed second cloud. -/
theorem point_value :
    k0_pay1 (F := Ideal) (k0_pay10 (k0_pay4 v0) (k0_pay5 v0) (k0_pay7 v0 v7) (k0_pay8 v0 v7) v51)
        (k0_pay11 (k0_pay4 v0) (k0_pay5 v0) (k0_pay6 v0 v7) v51) (ix2 0 0)
      = kerPart (rows (fun n d => v7 (ix3 0 n d)) (fun n d => v51 (ix3 0 n d))) (fun d m => v0 (ix3 0 d m)) := by
  refine (pay1_apply _ _).trans ?_
  unfold kerPart
  refine congrArg₂ (· + ·) (congrArg (· * invCount) ?_) (congrArg (· * invCount) ?_)
  · -- the lanes sum to the sum over the 4096 points of the clamped least distance to the second cloud
    refine Eq.trans ?_ (Cert.Halving.sum_split_halves (show (4096 : ℕ) = 2048 + 2048 from rfl) _).symm
    rw [pay10_eq]
    refine (Finset.sum_add_distrib (f := fun l : Fin 128 => laneSum (rowLeast (k0_pay6 v0 v7)) (ix2 0 l))
      (g := fun l : Fin 128 => laneSum (rowLeast (k0_pay6 v0 v51)) (ix2 0 l))).trans ?_
    rw [laneSum_sum, laneSum_sum]
    refine congrArg₂ (· + ·) (Finset.sum_congr rfl fun r _ => ?_) (Finset.sum_congr rfl fun r _ => ?_)
    · rw [rowLeast_apply]
      exact congrArg (max · zero) (congrArg least (funext fun c => acc_lo v0 v7 v51 r _ c))
    · rw [rowLeast_apply]
      exact congrArg (max · zero) (congrArg least (funext fun c => acc_hi v0 v7 v51 r _ c))
  · -- each column's least over the 4096 points is the lesser of the two tiles' column minima
    refine Finset.sum_congr rfl fun m _ => congrArg (max · zero) ?_
    rw [pay11_apply]
    unfold least
    refine Eq.trans ?_ (Cert.Halving.fold_min_split_halves (show (4096 : ℕ) = 2048 + 2048 from rfl) posInf _).symm
    exact congrArg₂ min (Finset.fold_congr fun r _ => acc_lo v0 v7 v51 r _ m)
      (Finset.fold_congr fun r _ => acc_hi v0 v7 v51 r _ m)

end

end Cert.KernelIdeal.TileValue

end
-- ==== Proof.Blocks.lean ====
/-
  What the kernel's region finds in its two input arrays, block by block, and what its body's two half-block loads
  read of a block.

  The first window hands the body batch `t` of the first cloud whole; the second hands it batch `t` of the array the
  host lines before the region prepare: the second cloud with its last two axes exchanged, every element multiplied
  by the literal −2.  A block's coordinate is always the block index times the block size plus the coordinate inside
  the block, and a unit-stride load's coordinate is the offset plus the coordinate inside the loaded vector.
-/
import proofs.«176457_g5248450036648_cont_9to1_m_1041_39_alg».proof.Proof.Gen.KernelIdeal.Frame
import proofs.«176457_g5248450036648_cont_9to1_m_1041_39_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F]

/-! ## The body's two half-block loads -/

/-- The load of the first 2048 points of a block reads point `n` at point `n`. -/
theorem ld_lo (x0 : Vec F S1x4096x3 .f32) (n : Fin 2048) (d : Fin 3) :
    View.ld (Val := Elt F) (e' := .f32) x0
        (Rect.unit (s := S1x4096x3) ![0, 0, 0] S1x2048x3.size inb_S1x4096x3_S1x2048x3_0_0_0)
        (ix3 (0 : Fin 1) n d : S1x2048x3.Idx)
      = x0 (ix3 (0 : Fin 1) (⟨n.val, by omega⟩ : Fin 4096) d) := by
  refine congrArg x0 (funext fun a => Fin.ext ?_)
  match a with
  | ⟨0, _⟩ => rfl
  | ⟨1, _⟩ => show 0 + 1 * n.val = n.val; omega
  | ⟨2, _⟩ => show 0 + 1 * d.val = d.val; omega

/-- The load of the last 2048 points of a block reads point `n + 2048` at point `n`. -/
theorem ld_hi (x0 : Vec F S1x4096x3 .f32) (n : Fin 2048) (d : Fin 3) :
    View.ld (Val := Elt F) (e' := .f32) x0
        (Rect.unit (s := S1x4096x3) ![0, 2048, 0] S1x2048x3.size inb_S1x4096x3_S1x2048x3_0_2048_0)
        (ix3 (0 : Fin 1) n d : S1x2048x3.Idx)
      = x0 (ix3 (0 : Fin 1) (⟨n.val + 2048, by omega⟩ : Fin 4096) d) := by
  refine congrArg x0 (funext fun a => Fin.ext ?_)
  match a with
  | ⟨0, _⟩ => rfl
  | ⟨1, _⟩ => show 2048 + 1 * n.val = n.val + 2048; omega
  | ⟨2, _⟩ => show 0 + 1 * d.val = d.val; omega

/-! ## The windows' blocks -/

variable (m : (ℓ : Loc nD τ sig) → Buf (Elt F) ℓ)

/-- The batch a grid point works on: the grid has four points, one per batch. -/
abbrev batch (t : Fin cfg0.N) : Fin 4 := t.cast N_0

/-- The two input windows' block index at point `t` is (t, 0, 0). -/
theorem index_facts : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 := by
  decide +kernel

/-- The first window's block at point `t` is batch `t` of the first argument array. -/
theorem iblk0_apply (c : Dev nD) (t : Fin cfg0.N) (y : S1x4096x3.Idx) :
    (iblk m c 0 t : Vec F S1x4096x3 .f32) y
      = (m ((c : Thread nD τ).loc main_arg0) : S4x4096x3.Idx → Elt F .f32) (ix3 (batch t) (y 1) (y 2)) := by
  obtain ⟨h0, h1, h2, -, -, -⟩ := index_facts t
  unfold iblk
  show ((cfg0.win 0).blk t).view.read (Elt F) (V m c main_arg0) y = _
  rw [V_main_arg0]
  show m ((c : Thread nD τ).loc main_arg0) (((cfg0.win 0).blk t).view.emb y) = _
  refine congrArg (m ((c : Thread nD τ).loc main_arg0)) (funext fun a => Fin.ext ?_)
  match a with
  | ⟨0, _⟩ =>
    show win0_0.index t (0 : Fin 3) * 1 + 1 * (y 0).val = t.val
    have hy : (y 0).val < 1 := (y 0).isLt
    omega
  | ⟨1, _⟩ => show win0_0.index t (1 : Fin 3) * 4096 + 1 * (y 1).val = (y 1).val; omega
  | ⟨2, _⟩ => show win0_0.index t (2 : Fin 3) * 3 + 1 * (y 2).val = (y 2).val; omega

/-- The second window's block at point `t` is batch `t` of the array the host lines before the region prepare. -/
theorem iblk1_apply (c : Dev nD) (t : Fin cfg0.N) (y : S1x3x4096.Idx) :
    (iblk m c 1 t : Vec F S1x3x4096 .f32) y
      = (V m c main_v2 : S4x3x4096.Idx → Elt F .f32) (ix3 (batch t) (y 1) (y 2)) := by
  obtain ⟨-, -, -, h0, h1, h2⟩ := index_facts t
  unfold iblk
  show (V m c main_v2 : S4x3x4096.Idx → Elt F .f32) (((cfg0.win 1).blk t).view.emb y) = _
  refine congrArg (V m c main_v2 : S4x3x4096.Idx → Elt F .f32) (funext fun a => Fin.ext ?_)
  match a with
  | ⟨0, _⟩ =>
    show win0_1.index t (0 : Fin 3) * 1 + 1 * (y 0).val = t.val
    have hy : (y 0).val < 1 := (y 0).isLt
    omega
  | ⟨1, _⟩ => show win0_1.index t (1 : Fin 3) * 3 + 1 * (y 1).val = (y 1).val; omega
  | ⟨2, _⟩ => show win0_1.index t (2 : Fin 3) * 4096 + 1 * (y 2).val = (y 2).val; omega

/-! ## The array the host lines prepare -/

/-- The second window's array when the region is entered: the second argument array with its last two axes
    exchanged, times the broadcast literal. -/
theorem V_main_v2_eq (c : Dev nD) :
    (V m c main_v2 : S4x3x4096.Idx → Elt F .f32)
      = mulf (broadcastInDim S4x3x4096 ![] bcast_S_S4x3x4096 (constant (F := F) S_ .f32 0xC0000000#32))
          (transpose S4x3x4096 [0, 2, 1] (m ((c : Thread nD τ).loc main_arg1)) transposes_S4x4096x3_S4x3x4096_0_2_1) := by
  show StableHlo.after hostOps0 (fun b => m (c, b)) (Proc.devRef .tc main_v2) = _
  after_results

/-- At the extended reals, element (batch, d, n) of that array is −2 times element (batch, n, d) of the second
    argument array. -/
theorem V_main_v2_apply (m : (ℓ : Loc nD τ sig) → Buf (Elt Ideal) ℓ) (c : Dev nD) (bt : Fin 4) (d : Fin 3)
    (n : Fin 4096) :
    (V m c main_v2 : S4x3x4096.Idx → Elt Ideal .f32) (ix3 bt d n)
      = Cert.Chamfer.negTwo * (m ((c : Thread nD τ).loc main_arg1) : S4x4096x3.Idx → Elt Ideal .f32) (ix3 bt n d) := by
  rw [V_main_v2_eq]
  refine (mulf_apply _ _ _).trans (congrArg₂ (· * ·) ?_ ?_)
  · exact broadcastInDim_apply _ bcast_S_S4x3x4096 _ _ ix0 (fun a => a.elim0)
  · exact transpose_ix3_021_apply _ _ bt d n

end Cert.KernelIdeal.Blocks

end
-- ==== Proof.UnitShapes.lean ====
/-
  Arrays with a single element. A shape all of whose extents are 1 has exactly one index, so a reshaping between two
  such shapes (or down to the rank-0 shape) read at any index is the operand read at its one index. Also: a
  4096-row cloud cut into its two halves of 2048 rows and reassembled is the cloud.
-/
import proofs.«176457_g5248450036648_cont_9to1_m_1041_39_alg».proof.Proof.Gen.KernelIdeal
import proofs.«176457_g5248450036648_cont_9to1_m_1041_39_alg».proof.Proof.Spec
import Idealize.ShloMosaic.Lib.Pipeline.Value
import Idealize.ShloMosaic.Lib.ValueIdx
import Idealize.ShloMosaic.Lib.ValueLayout

noncomputable section

namespace Cert.KernelIdeal.UnitShapes

open Idealize.ShloMosaic Idealize.SL.Sem Cert.KernelIdeal

variable {F : FTy → Type} [FloatOps F] {α : Type}

/-! ## The one index of a one-element shape -/

/-- Every index of the 1×1 shape is (0, 0): each coordinate lives in `Fin 1`. -/
theorem idx_S1x1 (i : S1x1.Idx) : i = ValueIdx.ix2 0 0 := by
  funext a
  match a with
  | ⟨0, _⟩ => exact Subsingleton.elim (α := Fin 1) _ _
  | ⟨1, _⟩ => exact Subsingleton.elim (α := Fin 1) _ _

/-- Every index of the 1×1×1 shape is (0, 0, 0). -/
theorem idx_S1x1x1 (i : S1x1x1.Idx) : i = ValueIdx.ix3 0 0 0 := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-! ## Reshapings between one-element shapes, read at an index

Stated for any witness `h` of the reshaping's side condition (all witnesses of a proposition are equal), then at the
witnesses the program's side conditions name. -/

/-- 1×1 reshaped to 1×1×1 reads the operand's one element. -/
theorem cast_up_of (v : S1x1.Idx → α) (h : S1x1.ShapeCasts S1x1x1) (i : S1x1x1.Idx) :
    shapeCast S1x1x1 v h i = v (ValueIdx.ix2 0 0) := by
  unfold shapeCast
  exact congrArg v (idx_S1x1 _)

/-- 1×1×1 reshaped to 1×1 reads the operand's one element. -/
theorem cast_down_of (v : S1x1x1.Idx → α) (h : S1x1x1.ShapeCasts S1x1) (i : S1x1.Idx) :
    shapeCast S1x1 v h i = v (ValueIdx.ix3 0 0 0) := by
  unfold shapeCast
  exact congrArg v (idx_S1x1x1 _)

/-- 1×1×1 reshaped to the rank-0 shape reads the operand's one element. -/
theorem cast_scalar_of (x : S1x1x1.Idx → α) (h : S1x1x1.ShapeCasts S_) (j : S_.Idx) :
    shapeCast S_ x h j = x (ValueIdx.ix3 0 0 0) := by
  unfold shapeCast
  exact congrArg x (idx_S1x1x1 _)

section AtFacts

variable [Facts]
open Facts₀ Facts

theorem cast_up (v : FVec F S1x1 .f32) (i : S1x1x1.Idx) :
    shapeCast S1x1x1 v shapeCasts_S1x1_S1x1x1 i = v (ValueIdx.ix2 0 0) :=
  cast_up_of v _ i

theorem cast_down (v : Vec F S1x1x1 .f32) (i : S1x1.Idx) :
    shapeCast S1x1 v shapeCasts_S1x1x1_S1x1 i = v (ValueIdx.ix3 0 0 0) :=
  cast_down_of v _ i

theorem cast_scalar (x : S1x1x1.Idx → Elt F .f32) (j : S_.Idx) :
    shapeCast S_ x shapeCasts_S1x1x1_S_ j = x (ValueIdx.ix3 0 0 0) :=
  cast_scalar_of x _ j

/-- The host reshape after the region: the rank-0 result buffer holds the 1×1×1 buffer's one element. -/
theorem reshape_result_apply (Fv : Valuation τ sig (Elt F)) (j : S_.Idx) :
    (StableHlo.reshape main_v3 main_v4 rfl shapeCasts_S1x1x1_S_ : HloOp τ sig (Elt F)).result Fv
        (Proc.devRef .tc main_v4) j
      = Fv (Proc.devRef .tc main_v3) (ValueIdx.ix3 0 0 0) := by
  rw [StableHlo.reshape_result]
  exact cast_scalar_of _ _ j

end AtFacts

end Cert.KernelIdeal.UnitShapes

namespace Cert.Chamfer

/-- A cloud's rows, handed over as the first 2048 and the last 2048, reassemble to the cloud. -/
theorem rows_split (f : Fin 4096 → Fin 3 → EReal) :
    rows (fun n d => f ⟨n.val, by omega⟩ d) (fun n d => f ⟨n.val + 2048, by omega⟩ d) = f := by
  funext n d
  unfold rows
  split_ifs with h
  · rfl
  · have e : (⟨n.val - 2048 + 2048, by omega⟩ : Fin 4096) = n := Fin.ext (by show n.val - 2048 + 2048 = n.val; omega)
    exact congrArg (fun k => f k d) e

end Cert.Chamfer

end
-- ==== Proof.Algebra.lean ====
/-
  The algebraic law that joins the two arrangements of the Chamfer distance.

  With real entries both arrangements compute, for every pair of points, the same real number
  ‖p‖² + ‖q‖² − 2⟨p,q⟩ before clamping; clamping below at zero commutes with taking the least of a family
  (a lattice law of a linear order); division by 16384 is multiplication by 2⁻¹⁴; and, every clamped term being
  non-negative, that factor distributes over the sums, so the four batches' contributions regroup into the two means.
-/
import proofs.«176457_g5248450036648_cont_9to1_m_1041_39_alg».proof.Proof.Spec
import Mathlib.Data.EReal.Inv
import Mathlib.Algebra.BigOperators.Fin
import Mathlib.Data.Finset.Fold

noncomputable section

namespace Cert.Chamfer

open Idealize.ShloMosaic

/-! ## The literals, each evaluated once -/

namespace Consts

theorem zero_eq : zero = 0 := by
  simp [Ideal.ofBits, Ideal.ieee]

theorem posInf_eq : posInf = ⊤ := by
  simp [Ideal.ofBits, Ideal.ieee]

theorem two_eq : two = ((2 : ℝ) : EReal) := by
  simp [Ideal.ofBits, Ideal.ieee, -EReal.coe_mul]; norm_num

theorem negTwo_eq : negTwo = ((-2 : ℝ) : EReal) := by
  simp [Ideal.ofBits, Ideal.ieee, -EReal.coe_mul]; norm_num

theorem quarter_eq : quarter = ((1 / 4 : ℝ) : EReal) := by
  simp [Ideal.ofBits, Ideal.ieee, -EReal.coe_mul]; norm_num

theorem count_eq : count = ((16384 : ℝ) : EReal) := by
  simp [Ideal.ofBits, Ideal.ieee, -EReal.coe_mul]; norm_num

theorem invCount_eq : invCount = ((1 / 16384 : ℝ) : EReal) := by
  simp [Ideal.ofBits, Ideal.ieee, -EReal.coe_mul]; norm_num

end Consts

/-! ## One pair of points -/

/-- With real coordinates the reference's clamped distance is the kernel's accumulation, clamped: both are the real
    ‖p‖² + ‖q‖² − 2⟨p,q⟩, the kernel having ‖q‖² as ¼·‖−2q‖² and −2⟨p,q⟩ as ⟨p,−2q⟩. -/
theorem refDist_eq_max_kerAcc (a b : Cloud) (ra rb : Fin 4 → Fin 4096 → Fin 3 → ℝ)
    (ha : ∀ bt n d, a bt n d = (ra bt n d : EReal)) (hb : ∀ bt n d, b bt n d = (rb bt n d : EReal))
    (bt : Fin 4) (n m : Fin 4096) :
    refDist a b bt n m
      = max (kerAcc (fun n d => a bt n d) (fun d m => negTwo * b bt m d) n m) zero := by
  simp only [refDist, kerAcc, ha, hb, Consts.zero_eq, Consts.two_eq, Consts.negTwo_eq, Consts.quarter_eq,
    Fin.sum_univ_three, zero_add]
  simp only [← EReal.coe_mul, ← EReal.coe_add, ← EReal.coe_sub]
  exact congrArg (fun r : ℝ => max (r : EReal) 0) (by ring)

/-- A clamped distance is non-negative. -/
theorem refDist_nonneg (a b : Cloud) (bt : Fin 4) (n m : Fin 4096) : 0 ≤ refDist a b bt n m := by
  simp only [refDist, Consts.zero_eq]
  exact le_max_right _ _

/-! ## The least of a family -/

/-- Clamping below commutes with the least of a family: `max · c` preserves `min` in a linear order, and it fixes
    the value +∞ the least is started at. -/
theorem max_least (f : Fin 4096 → EReal) : max (least f) zero = least fun m => max (f m) zero := by
  have h := Finset.fold_hom (op := min) (op' := min) (s := (Finset.univ : Finset (Fin 4096))) (b := posInf)
    (f := f) (m := fun x => max x zero) (fun x y => max_min_distrib_right x y zero)
  have h0 : max posInf zero = posInf := by
    rw [Consts.posInf_eq]; exact max_eq_left le_top
  simp only [h0] at h
  exact h.symm

/-- The least of a non-negative family, started at +∞, is non-negative. -/
theorem least_nonneg (f : Fin 4096 → EReal) (hf : ∀ m, 0 ≤ f m) : 0 ≤ least f := by
  unfold least
  rw [Finset.le_fold_min]
  exact ⟨by rw [Consts.posInf_eq]; exact le_top, fun m _ => hf m⟩

/-! ## One batch -/

/-- One batch's contribution in the reference's terms: the sum over the first cloud of the least clamped distance
    to the second, and the same the other way round, each scaled by the reciprocal count. -/
theorem kerBatch_eq (a b : Cloud) (ra rb : Fin 4 → Fin 4096 → Fin 3 → ℝ)
    (ha : ∀ bt n d, a bt n d = (ra bt n d : EReal)) (hb : ∀ bt n d, b bt n d = (rb bt n d : EReal))
    (bt : Fin 4) :
    kerBatch a b bt
      = (∑ n : Fin 4096, least fun m => refDist a b bt n m) * invCount
        + (∑ m : Fin 4096, least fun n => refDist a b bt n m) * invCount := by
  have h1 : ∀ n : Fin 4096,
      max (least fun m => kerAcc (fun n d => a bt n d) (fun d m => negTwo * b bt m d) n m) zero
        = least fun m => refDist a b bt n m := by
    intro n
    rw [max_least]
    exact congrArg least (funext fun m => (refDist_eq_max_kerAcc a b ra rb ha hb bt n m).symm)
  have h2 : ∀ m : Fin 4096,
      max (least fun n => kerAcc (fun n d => a bt n d) (fun d m => negTwo * b bt m d) n m) zero
        = least fun n => refDist a b bt n m := by
    intro m
    rw [max_least]
    exact congrArg least (funext fun n => (refDist_eq_max_kerAcc a b ra rb ha hb bt n m).symm)
  unfold kerBatch kerPart
  rw [Finset.sum_congr rfl fun n _ => h1 n, Finset.sum_congr rfl fun m _ => h2 m]

/-! ## The four batches -/

/-- Four contributions, each a pair of non-negative sums scaled by a common factor, regroup into the two totals
    scaled by that factor: addition of extended reals is commutative and associative, and a factor distributes
    over a sum of non-negative terms. -/
theorem regroup (s t : Fin 4 → EReal) (hs : ∀ i, 0 ≤ s i) (ht : ∀ i, 0 ≤ t i) (c : EReal) :
    (((s 0 * c + t 0 * c) + (s 1 * c + t 1 * c)) + (s 2 * c + t 2 * c)) + (s 3 * c + t 3 * c)
      = (∑ i, s i) * c + (∑ i, t i) * c := by
  rw [Fin.sum_univ_four, Fin.sum_univ_four,
    EReal.right_distrib_of_nonneg (add_nonneg (add_nonneg (hs 0) (hs 1)) (hs 2)) (hs 3),
    EReal.right_distrib_of_nonneg (add_nonneg (hs 0) (hs 1)) (hs 2),
    EReal.right_distrib_of_nonneg (hs 0) (hs 1),
    EReal.right_distrib_of_nonneg (add_nonneg (add_nonneg (ht 0) (ht 1)) (ht 2)) (ht 3),
    EReal.right_distrib_of_nonneg (add_nonneg (ht 0) (ht 1)) (ht 2),
    EReal.right_distrib_of_nonneg (ht 0) (ht 1)]
  abel

/-! ## The two arrangements agree -/

/-- With finite entries, the kernel's running total over the four batches is the reference's sum of two means. -/
theorem kerTotal_eq_chamferRef (a b : Cloud)
    (ha : ∀ bt n d, ∃ r : ℝ, a bt n d = (r : EReal)) (hb : ∀ bt n d, ∃ r : ℝ, b bt n d = (r : EReal)) :
    kerTotal a b = chamferRef a b := by
  choose ra hra using ha
  choose rb hrb using hb
  have hs : ∀ bt : Fin 4, 0 ≤ ∑ n : Fin 4096, least fun m => refDist a b bt n m := fun bt =>
    Finset.sum_nonneg fun n _ => least_nonneg _ fun m => refDist_nonneg a b bt n m
  have ht : ∀ bt : Fin 4, 0 ≤ ∑ m : Fin 4096, least fun n => refDist a b bt n m := fun bt =>
    Finset.sum_nonneg fun m _ => least_nonneg _ fun n => refDist_nonneg a b bt n m
  have hc : (16384 : ℝ) ≠ 0 := by norm_num
  unfold kerTotal chamferRef
  rw [kerBatch_eq a b ra rb hra hrb 0, kerBatch_eq a b ra rb hra hrb 1, kerBatch_eq a b ra rb hra hrb 2,
    kerBatch_eq a b ra rb hra hrb 3, Consts.count_eq, Ideal.div_coe hc, Ideal.div_coe hc, ← Consts.invCount_eq,
    Consts.zero_eq, zero_add, zero_add]
  exact regroup _ _ hs ht invCount

end Cert.Chamfer

end
-- ==== Proof.Finite.lean ====
/-
  Finiteness of the inputs. The precondition says of each argument array that every entry's absolute value lies
  strictly below +∞: a conjunction of two "for all" reductions of one-bit comparisons. Read at an index, each
  comparison excludes both infinities, so every entry is the image of a real number.
-/
import proofs.«176457_g5248450036648_cont_9to1_m_1041_39_alg».proof.Defs
import proofs.«176457_g5248450036648_cont_9to1_m_1041_39_alg».proof.Proof.Gen.Pre_finite_inputs
import Idealize.ShloMosaic.Lib.ReduceAll
import Idealize.ShloMosaic.Lib.ValueIdx

noncomputable section

namespace Cert.Chamfer

open Idealize.ShloMosaic Cert.Pre_finite_inputs

/-- An extended real whose absolute value `max v (−v)` compares strictly below +∞ is a real number: at either
    infinity the absolute value is +∞ itself, and +∞ is not below +∞. -/
theorem real_of_abs_lt_inf (v : EReal)
    (h : Ideal.cmp .olt (max v (-v)) (Ideal.ofBits .f32 0x7F800000#32) = 1#1) : ∃ r : ℝ, v = (r : EReal) := by
  have hInf : Ideal.ofBits .f32 0x7F800000#32 = ⊤ := by simp [Ideal.ofBits, Ideal.ieee]
  rw [hInf] at h
  induction v using EReal.rec with
  | bot => simp [Ideal.cmp] at h
  | coe r => exact ⟨r, rfl⟩
  | top => simp [Ideal.cmp] at h

/-- If the finiteness predicate of two arrays is all ones, every entry of both is a real number: the conjunction
    gives each array's "for all", the "for all" gives the comparison at each index, and the comparison there is
    `|x i| < +∞` (the bound a scalar broadcast to the array's shape). -/
theorem real_of_finite_inputs (x y : FVec Ideal S4x4096x3 .f32)
    (h : Cert.Pre_finite_inputs.fn (F := Ideal) x y = fun _ => 1#1) :
    (∀ i : S4x4096x3.Idx, ∃ r : ℝ, x i = (r : EReal)) ∧ (∀ i : S4x4096x3.Idx, ∃ r : ℝ, y i = (r : EReal)) := by
  haveI : Subsingleton S_.Idx := ⟨fun a b => funext fun d => d.elim0⟩
  have h0 := congrFun h ValueIdx.ix0
  dsimp only [Cert.Pre_finite_inputs.fn] at h0
  obtain ⟨hx, hy⟩ := IntOp.andi_eq_one.1 h0
  refine ⟨fun i => ?_, fun i => ?_⟩
  · exact real_of_abs_lt_inf (x i) (Host.reduce_andi_all _ _ _ _ _ hx i)
  · exact real_of_abs_lt_inf (y i) (Host.reduce_andi_all _ _ _ _ _ hy i)

/-- Under the precondition, on every device the first argument array holds real numbers only. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : S4x4096x3.Idx) :
    ∃ r : ℝ, m ((c.tc : Thread Cert.KernelIdeal.nD Cert.KernelIdeal.τ).loc Cert.KernelIdeal.main_arg0) i = (r : EReal) :=
  (real_of_finite_inputs _ _ (h c)).1 i

/-- Under the precondition, on every device the second argument array holds real numbers only. -/
theorem arg1_real (m : (ℓ : Loc Cert.KernelIdeal.nD Cert.KernelIdeal.τ Cert.KernelIdeal.sig) → Buf (Elt Ideal) ℓ)
    (h : Cert.Pre_KernelIdeal m) (c : Dev Cert.KernelIdeal.nD) (i : S4x4096x3.Idx) :
    ∃ r : ℝ, m ((c.tc : Thread Cert.KernelIdeal.nD Cert.KernelIdeal.τ).loc Cert.KernelIdeal.main_arg1) i = (r : EReal) :=
  (real_of_finite_inputs _ _ (h c)).2 i

end Cert.Chamfer

end
-- ==== Proof.RefValue.lean ====
/-
  The reference program's result, read back as the specification's reference arrangement.

  The program forms, for every batch and every pair of points, the clamped expanded squared distance; takes its least
  over the second cloud's points and over the first cloud's points; sums each family of least values over all batches
  and points from zero; divides each total by the count; and adds the two quotients.  Read at an index, operation by
  operation, that is the specification's formula term for term.
-/
import proofs.«176457_g5248450036648_cont_9to1_m_1041_39_alg».proof.Proof.Gen.ReferenceIdeal.Read
import proofs.«176457_g5248450036648_cont_9to1_m_1041_39_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Chamfer

/-- The two argument arrays as clouds: batch, point, coordinate. -/
abbrev cloud (x : (⟨S4x4096x3, .f32⟩ : BufTy).Contents (Elt Ideal)) : Cloud := fun bt n d => x (ix3 bt n d)

/-! ## Where each operand is read -/

/-- The first cloud's squared norm is read, through the two broadcasts, at point `n`. -/
theorem idx_norm0 (bt : Fin 4) (n m : Fin 4096) (k : Fin 3) :
    idx_main_v1 (idx_main_v5 (idx_main_v7 (ix3 bt n m))) k = ix3 bt n k :=
  funext fun a => Fin.ext (by match a with | ⟨0, _⟩ => rfl | ⟨1, _⟩ => rfl | ⟨2, _⟩ => rfl)

/-- The second cloud's squared norm is read, through the two broadcasts, at point `m`. -/
theorem idx_norm1 (bt : Fin 4) (n m : Fin 4096) (k : Fin 3) :
    idx_main_v3 (idx_main_v6 (idx_main_v8 (ix3 bt n m))) k = ix3 bt m k :=
  funext fun a => Fin.ext (by match a with | ⟨0, _⟩ => rfl | ⟨1, _⟩ => rfl | ⟨2, _⟩ => rfl)

/-- The contraction reads the first cloud at point `n` … -/
theorem idx_dotl (bt : Fin 4) (n m : Fin 4096) (k : Fin 3) :
    lidx_main_v4 (ix3 bt n m) k = ix3 bt n k :=
  funext fun a => Fin.ext (by match a with | ⟨0, _⟩ => rfl | ⟨1, _⟩ => rfl | ⟨2, _⟩ => rfl)

/-- … and the second at point `m`. -/
theorem idx_dotr (bt : Fin 4) (n m : Fin 4096) (k : Fin 3) :
    ridx_main_v4 (ix3 bt n m) k = ix3 bt m k :=
  funext fun a => Fin.ext (by match a with | ⟨0, _⟩ => rfl | ⟨1, _⟩ => rfl | ⟨2, _⟩ => rfl)

/-! ## The clamped distance -/

/-- The clamped distance array at (batch, n, m) is the specification's `refDist`. -/
theorem dist_at (x0 x1 : (⟨S4x4096x3, .f32⟩ : BufTy).Contents (Elt Ideal)) (bt : Fin 4) (n m : Fin 4096) :
    val_main_v14 (F := Ideal) x0 x1 (ix3 bt n m) = refDist (cloud x0) (cloud x1) bt n m := by
  rw [val_main_v14_apply, val_main_v12_apply, val_main_v13_apply, val_main_cst_2_apply, val_main_v9_apply,
    val_main_v11_apply, val_main_v10_apply, val_main_cst_1_apply, val_main_v4_apply, val_main_v7_apply,
    val_main_v5_apply, val_main_v1_apply, val_main_cst_apply, val_main_v8_apply, val_main_v6_apply,
    val_main_v3_apply, val_main_cst_0_apply]
  simp only [val_main_v0_apply, val_main_v2_apply, idx_norm0, idx_norm1, idx_dotl, idx_dotr, Ideal.ofBits_def,
    Ideal.addf_def, Ideal.subf_def, Ideal.mulf_def, Ideal.maximumf_def]
  rfl

/-! ## The two families of least distances -/

/-- The reduction over the last axis inserts the coordinate after (batch, n). -/
theorem lift_last (h : S4x4096x4096.Reduces [2] S4x4096) (bt : Fin 4) (n m : Fin 4096) :
    h.lift (ix2 bt n) m = ix3 bt n m :=
  funext fun a => Fin.ext (by match a with | ⟨0, _⟩ => rfl | ⟨1, _⟩ => rfl | ⟨2, _⟩ => rfl)

/-- The reduction over the middle axis inserts the coordinate between batch and m. -/
theorem lift_mid (h : S4x4096x4096.Reduces [1] S4x4096) (bt : Fin 4) (m n : Fin 4096) :
    h.lift (ix2 bt m) n = ix3 bt n m :=
  funext fun a => Fin.ext (by match a with | ⟨0, _⟩ => rfl | ⟨1, _⟩ => rfl | ⟨2, _⟩ => rfl)

/-- A minimum-reduction of any array over its last axis, from the pattern of +∞, is `least` over that axis. -/
theorem reduce_last (y : (⟨S4x4096x4096, .f32⟩ : BufTy).Contents (Elt Ideal)) (bt : Fin 4) (n : Fin 4096) :
    (Host.reduce (FloatOps.minimumf (F := Ideal) (φ := .f32)) y (val_main_cst_3 (F := Ideal)) reducesTo_S4x4096x4096_S4x4096_d2 h_S_
        : (⟨S4x4096, .f32⟩ : BufTy).Contents (Elt Ideal)) (ix2 bt n)
      = least fun m => y (ix3 bt n m) := by
  have h : S4x4096x4096.Reduces [2] S4x4096 := by decide
  refine (Host.reduce_eq_fold_single _ y _ reducesTo_S4x4096x4096_S4x4096_d2 h h_S_ _).trans ?_
  show (Finset.univ : Finset (Fin 4096)).fold min posInf (y ∘ h.lift (ix2 bt n)) = _
  exact Finset.fold_congr fun m _ => congrArg y (lift_last h bt n m)

/-- The same over the middle axis. -/
theorem reduce_mid (y : (⟨S4x4096x4096, .f32⟩ : BufTy).Contents (Elt Ideal)) (bt : Fin 4) (m : Fin 4096) :
    (Host.reduce (FloatOps.minimumf (F := Ideal) (φ := .f32)) y (val_main_cst_4 (F := Ideal)) reducesTo_S4x4096x4096_S4x4096_d1 h_S_
        : (⟨S4x4096, .f32⟩ : BufTy).Contents (Elt Ideal)) (ix2 bt m)
      = least fun n => y (ix3 bt n m) := by
  have h : S4x4096x4096.Reduces [1] S4x4096 := by decide
  refine (Host.reduce_eq_fold_single _ y _ reducesTo_S4x4096x4096_S4x4096_d1 h h_S_ _).trans ?_
  show (Finset.univ : Finset (Fin 4096)).fold min posInf (y ∘ h.lift (ix2 bt m)) = _
  exact Finset.fold_congr fun n _ => congrArg y (lift_mid h bt m n)

/-- The least distance from point `n` of the first cloud to the second cloud. -/
theorem near1_at (x0 x1 : (⟨S4x4096x3, .f32⟩ : BufTy).Contents (Elt Ideal)) (bt : Fin 4) (n : Fin 4096) :
    val_main_v15 (F := Ideal) x0 x1 (ix2 bt n) = least fun m => refDist (cloud x0) (cloud x1) bt n m := by
  unfold val_main_v15
  rw [reduce_last]
  exact congrArg least (funext fun m => dist_at x0 x1 bt n m)

/-- The least distance from point `m` of the second cloud to the first cloud. -/
theorem near2_at (x0 x1 : (⟨S4x4096x3, .f32⟩ : BufTy).Contents (Elt Ideal)) (bt : Fin 4) (m : Fin 4096) :
    val_main_v16 (F := Ideal) x0 x1 (ix2 bt m) = least fun n => refDist (cloud x0) (cloud x1) bt n m := by
  unfold val_main_v16
  rw [reduce_mid]
  exact congrArg least (funext fun n => dist_at x0 x1 bt n m)

/-! ## The two totals and the result -/

/-- The total of the first family: a sum over batches and points of the first cloud. -/
theorem total1 (x0 x1 : (⟨S4x4096x3, .f32⟩ : BufTy).Contents (Elt Ideal)) :
    ∑ j : S4x4096.Idx, val_main_v15 (F := Ideal) x0 x1 j
      = ∑ bt : Fin 4, ∑ n : Fin 4096, least fun m => refDist (cloud x0) (cloud x1) bt n m :=
  (sum_idx2 _).trans (Finset.sum_congr rfl fun bt _ => Finset.sum_congr rfl fun n _ => near1_at x0 x1 bt n)

/-- The total of the second family: a sum over batches and points of the second cloud. -/
theorem total2 (x0 x1 : (⟨S4x4096x3, .f32⟩ : BufTy).Contents (Elt Ideal)) :
    ∑ j : S4x4096.Idx, val_main_v16 (F := Ideal) x0 x1 j
      = ∑ bt : Fin 4, ∑ m : Fin 4096, least fun n => refDist (cloud x0) (cloud x1) bt n m :=
  (sum_idx2 _).trans (Finset.sum_congr rfl fun bt _ => Finset.sum_congr rfl fun m _ => near2_at x0 x1 bt m)

/-- The reference's result is the specification's `chamferRef` of the two argument arrays. -/
theorem ref_value (x0 x1 : (⟨S4x4096x3, .f32⟩ : BufTy).Contents (Elt Ideal)) :
    Cert.ReferenceIdeal.Read.val_main_v21 (F := Ideal) x0 x1
      = fun _ => Cert.Chamfer.chamferRef (fun bt n d => x0 (ValueIdx.ix3 bt n d)) (fun bt n d => x1 (ValueIdx.ix3 bt n d)) := by
  funext i
  rw [val_main_v21_apply, val_main_v18_apply, val_main_v20_apply, val_main_v17_apply, val_main_v19_apply,
    val_main_cst_5_apply, val_main_cst_6_apply, val_main_cst_7_apply, val_main_cst_8_apply, total1, total2]
  rfl

end Cert.ReferenceIdeal.RefValue

end
-- ==== Proof.Bridge.lean ====
/-
  The kernel's result is the kernel-arrangement total of the specification.

  At grid point t the body's two blocks are batch t of the first cloud and batch t of the second cloud transposed
  and scaled by −2, so its contribution is the specification's contribution of batch t; the two half loads of the
  first block are the first and last 2048 points of the batch.  The one-element casts between [1,1], [1,1,1] and the
  scalar shape read the one element.  So the scalar the program ends with is the left-to-right sum of the four
  batches' contributions.
-/
import proofs.«176457_g5248450036648_cont_9to1_m_1041_39_alg».proof.Proof.BodyValue
import proofs.«176457_g5248450036648_cont_9to1_m_1041_39_alg».proof.Proof.TileValue
import proofs.«176457_g5248450036648_cont_9to1_m_1041_39_alg».proof.Proof.Blocks
import proofs.«176457_g5248450036648_cont_9to1_m_1041_39_alg».proof.Proof.UnitShapes
import proofs.«176457_g5248450036648_cont_9to1_m_1041_39_alg».proof.Proof.Algebra
import proofs.«176457_g5248450036648_cont_9to1_m_1041_39_alg».proof.Proof.Finite
import proofs.«176457_g5248450036648_cont_9to1_m_1041_39_alg».proof.Proof.RefValue

set_option maxRecDepth 16384

noncomputable section

namespace Cert.KernelIdeal.Bridge

open Cert.KernelIdeal Cert.KernelIdeal.Gen Cert.KernelIdeal.Body Cert.Chamfer
open Idealize.ShloMosaic Idealize.ShloMosaic.TcCoe Idealize.ShloMosaic.ValueIdx Idealize.SL.Sem

variable (m : (ℓ : Loc nD τ sig) → Buf (Elt Ideal) ℓ)

/-- The first argument array as a batch of clouds. -/
abbrev cloudA (c : Dev nD) : Cloud :=
  fun bt n d => (m ((c.tc : Thread nD τ).loc main_arg0) : S4x4096x3.Idx → Elt Ideal .f32) (ix3 bt n d)
/-- The second. -/
abbrev cloudB (c : Dev nD) : Cloud :=
  fun bt n d => (m ((c.tc : Thread nD τ).loc main_arg1) : S4x4096x3.Idx → Elt Ideal .f32) (ix3 bt n d)

/-- The body's contribution at grid point `t` is the specification's contribution of batch `t`. -/
theorem contrib_eq (c : Dev nD) (t : Fin cfg0.N) :
    contrib (F := Ideal) (iblk m c 0 t) (iblk m c 1 t) (ix2 0 0) = kerBatch (cloudA m c) (cloudB m c) (Blocks.batch t) := by
  unfold contrib
  refine (TileValue.point_value (iblk m c 1 t) (loRows (iblk m c 0 t)) (hiRows (iblk m c 0 t))).trans ?_
  have hlo : (fun (n : Fin 2048) (d : Fin 3) => loRows (F := Ideal) (iblk m c 0 t) (ix3 0 n d))
      = fun n d => cloudA m c (Blocks.batch t) ⟨n.val, by omega⟩ d :=
    funext fun n => funext fun d => (Blocks.ld_lo _ n d).trans (Blocks.iblk0_apply m c t _)
  have hhi : (fun (n : Fin 2048) (d : Fin 3) => hiRows (F := Ideal) (iblk m c 0 t) (ix3 0 n d))
      = fun n d => cloudA m c (Blocks.batch t) ⟨n.val + 2048, by omega⟩ d :=
    funext fun n => funext fun d => (Blocks.ld_hi _ n d).trans (Blocks.iblk0_apply m c t _)
  have hq : (fun (d : Fin 3) (k : Fin 4096) => (iblk m c 1 t : Vec Ideal S1x3x4096 .f32) (ix3 0 d k))
      = fun d k => negTwo * cloudB m c (Blocks.batch t) k d :=
    funext fun d => funext fun k => (Blocks.iblk1_apply m c t _).trans (Blocks.V_main_v2_apply m c _ d k)
  unfold kerBatch
  exact congrArg₂ kerPart ((congrArg₂ rows hlo hhi).trans (rows_split fun n d => cloudA m c (Blocks.batch t) n d)) hq

/-- After the first point the output block holds batch 0's contribution. -/
theorem total_zero_apply (c : Dev nD) (h : 0 < cfg0.N) :
    total m c 0 h (ix3 0 0 0) = kerBatch (cloudA m c) (cloudB m c) 0 :=
  (UnitShapes.cast_up_of _ _ _).trans (contrib_eq m c ⟨0, h⟩)

/-- Each later point adds its batch's contribution to what the block held. -/
theorem total_succ_apply (c : Dev nD) (n : ℕ) (h : n + 1 < cfg0.N) :
    total m c (n + 1) h (ix3 0 0 0)
      = total m c n (Nat.lt_of_succ_lt h) (ix3 0 0 0) + kerBatch (cloudA m c) (cloudB m c) (Blocks.batch ⟨n + 1, h⟩) := by
  refine (UnitShapes.cast_up_of _ _ _).trans ?_
  show shapeCast S1x1 (total m c n (Nat.lt_of_succ_lt h)) shapeCasts_S1x1x1_S1x1 (ix2 0 0)
      + contrib (F := Ideal) (iblk m c 0 ⟨n + 1, h⟩) (iblk m c 1 ⟨n + 1, h⟩) (ix2 0 0) = _
  rw [UnitShapes.cast_down_of, contrib_eq]

/-- The program's result is the left-to-right sum of the four batches' contributions. -/
theorem result_eq (c : Dev nD) : result m c = fun _ => kerTotal (cloudA m c) (cloudB m c) := by
  funext j
  refine (UnitShapes.cast_scalar_of _ _ j).trans ?_
  have hN : cfg0.N = 4 := N_0
  show total m c 3 _ (ix3 0 0 0) = _
  rw [total_succ_apply m c 2 (by omega), total_succ_apply m c 1 (by omega), total_succ_apply m c 0 (by omega),
    total_zero_apply m c (by omega)]
  rfl

end Cert.KernelIdeal.Bridge

end
-- ==== Proof.lean ====
/-
  The claim.  Both programs compute the Chamfer distance of two batches of point clouds: for each point of one
  cloud the squared distance to the nearest point of the other, clamped at zero, averaged over all points, the two
  directions added.

  The reference forms every pairwise distance ‖a‖² + ‖b‖² − 2⟨a,b⟩, clamps, takes the least along each axis, and
  takes the two means.  The kernel is handed the second cloud transposed and scaled by −2; per batch it recovers
  ‖b‖² as ¼·Σ(−2b)², has −2⟨a,b⟩ directly as a matrix product, takes the least along each axis BEFORE clamping
  (clamping is monotone, so it commutes with taking the least), scales the batch's two sums by 2⁻¹⁴ = 1/16384 — an
  exact power of two, so the same number as dividing by the count — and adds the four batches' contributions into
  a one-element output that stays resident across the grid.  Over finite inputs these are the same real number:
  the expansion is real arithmetic, and a positive factor distributes over sums of non-negative terms.

  The frames: the kernel body is run symbolically once per control case (first grid point: overwrite the output;
  later points: read it back and add), at both instances; the reference is a straight line of host operations.
  Nothing was rewritten by the idealization, so there is nothing to preserve.
-/
import proofs.«176457_g5248450036648_cont_9to1_m_1041_39_alg».proof.Defs
import proofs.«176457_g5248450036648_cont_9to1_m_1041_39_alg».proof.Proof.Gen.Kernel
import proofs.«176457_g5248450036648_cont_9to1_m_1041_39_alg».proof.Proof.Gen.KernelIdeal
import proofs.«176457_g5248450036648_cont_9to1_m_1041_39_alg».proof.Proof.Gen.ReferenceIdeal
import proofs.«176457_g5248450036648_cont_9to1_m_1041_39_alg».proof.Proof.Gen.ReferenceIdeal.Run
import proofs.«176457_g5248450036648_cont_9to1_m_1041_39_alg».proof.Proof.Gen.ReferenceIdeal.Read
import proofs.«176457_g5248450036648_cont_9to1_m_1041_39_alg».proof.Proof.Gen.Pre_finite_inputs
import proofs.«176457_g5248450036648_cont_9to1_m_1041_39_alg».proof.Proof.BodyBits
import proofs.«176457_g5248450036648_cont_9to1_m_1041_39_alg».proof.Proof.Bridge
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two clouds, both idealized programs end with the same extended real: the
    reference's sum of two means of the clouds the kernel was given. -/
theorem algebraic : Cert.algebraic_KernelIdeal_ReferenceIdeal := by
  intro m ρ m' ρ' hpre hagree
  refine ⟨fun c _ => Cert.Chamfer.chamferRef (Cert.KernelIdeal.Bridge.cloudA m c) (Cert.KernelIdeal.Bridge.cloudB m c), ?_, ?_⟩
  · refine (θ_run Cert.KernelIdeal.defs _ _).mono (fun _ h c => ⟨(h c).1.trans ?_, (h c).2⟩)
      (Cert.KernelIdeal.Body.run_value (F := Ideal) m ρ)
    rw [Cert.KernelIdeal.Bridge.result_eq m c,
      Cert.Chamfer.kerTotal_eq_chamferRef _ _ (fun bt n d => Cert.Chamfer.arg0_real m hpre c _)
        (fun bt n d => Cert.Chamfer.arg1_real m hpre c _)]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.ReferenceIdeal.RefValue.ref_value, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
